-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S384x16384 : Shape := ⟨2, ![384, 16384]⟩
abbrev S384 : Shape := ⟨1, ![384]⟩
abbrev S512x512 : Shape := ⟨2, ![512, 512]⟩
abbrev S512 : Shape := ⟨1, ![512]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S384x16384 : S_.BroadcastsInDim S384x16384 (![] : Fin 0 → Fin S384x16384.rank)
  reducesTo_S384x16384_S_d0_1 : S384x16384.ReducesTo [0, 1] S_
  bcast_S_S384 : S_.BroadcastsInDim S384 (![] : Fin 0 → Fin S384.rank)
  reducesTo_S384_S_d0 : S384.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x4096x128 .f32) (main_arg1 : FVec F S384x16384 .f32) (main_arg2 : FVec F S384 .f32) (main_arg3 : FVec F S512x512 .f32) (main_arg4 : FVec F S512 .f32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_v4 : FVec F S384x16384 .f32 := Host.absf main_arg1
  let main_cst_0 : FVec F S_ .f32 := constant S_ .f32 0x7F800000#32
  let main_v5 : FVec F S384x16384 .f32 := broadcastInDim S384x16384 ![] bcast_S_S384x16384 main_cst_0
  let main_v6 : IVec S384x16384 1 := cmpf .olt main_v4 main_v5
  let main_c_1 : IVec S_ 1 := constantI S_ 1 1#1
  let main_v7 : IVec S_ 1 := (fun x v => Host.reduce IntOp.andi x v reducesTo_S384x16384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S64x4096x128 : Shape := ⟨3, ![64, 4096, 128]⟩
abbrev S384x16384 : Shape := ⟨2, ![384, 16384]⟩
abbrev S384 : Shape := ⟨1, ![384]⟩
abbrev S512x512 : Shape := ⟨2, ![512, 512]⟩
abbrev S512 : Shape := ⟨1, ![512]⟩
abbrev S64x128 : Shape := ⟨2, ![64, 128]⟩
abbrev S64x128x128 : Shape := ⟨3, ![64, 128, 128]⟩
abbrev S8x4096x128 : Shape := ⟨3, ![8, 4096, 128]⟩
abbrev S8x128 : Shape := ⟨2, ![8, 128]⟩
abbrev S8x128x128 : Shape := ⟨3, ![8, 128, 128]⟩
abbrev S8x512x128 : Shape := ⟨3, ![8, 512, 128]⟩
abbrev S8x1x128 : Shape := ⟨3, ![8, 1, 128]⟩
abbrev S64x16384 : Shape := ⟨2, ![64, 16384]⟩
abbrev S16384x384 : Shape := ⟨2, ![16384, 384]⟩
abbrev S128x512 : Shape := ⟨2, ![128, 512]⟩
abbrev S384x512 : Shape := ⟨2, ![384, 512]⟩
abbrev S64x512 : Shape := ⟨2, ![64, 512]⟩
abbrev S64x384 : Shape := ⟨2, ![64, 384]⟩
abbrev S1x384 : Shape := ⟨2, ![1, 384]⟩
abbrev S1x512 : Shape := ⟨2, ![1, 512]⟩

abbrev nBuf : Space → Nat
  | .hbm => 17
  | .vmem => 18
  | .smem => 0
  | _ => 0

abbrev bufTy : (tb : Table) → Fin (tcTables nBuf tb) → BufTy
  | .hbm, ⟨0, _⟩ => ⟨S64x4096x128, .f32⟩
  | .hbm, ⟨1, _⟩ => ⟨S384x16384, .f32⟩
  | .hbm, ⟨2, _⟩ => ⟨S384, .f32⟩
  | .hbm, ⟨3, _⟩ => ⟨S512x512, .f32⟩
  | .hbm, ⟨4, _⟩ => ⟨S512, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128x128, .f32⟩
  | .hbm, ⟨9, _⟩ => ⟨S64x16384, .f32⟩
  | .hbm, ⟨10, _⟩ => ⟨S16384x384, .f32⟩
  | .hbm, ⟨11, _⟩ => ⟨S16384x384, .bf16⟩
  | .hbm, ⟨12, _⟩ => ⟨S512x512, .f32⟩
  | .hbm, ⟨13, _⟩ => ⟨S512x512, .bf16⟩
  | .hbm, ⟨14, _⟩ => ⟨S128x512, .bf16⟩
  | .hbm, ⟨15, _⟩ => ⟨S384x512, .bf16⟩
  | .hbm, ⟨16, _⟩ => ⟨S64x512, .f32⟩
  | .local _ .vmem, ⟨0, _⟩ => ⟨S8x4096x128, .f32⟩
  | .local _ .vmem, ⟨1, _⟩ => ⟨S8x4096x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128x128, .f32⟩
  | .local _ .vmem, ⟨9, _⟩ => ⟨S8x128x128, .f32⟩
  | .local _ .vmem, ⟨10, _⟩ => ⟨S64x128, .f32⟩
  | .local _ .vmem, ⟨11, _⟩ => ⟨S64x16384, .f32⟩
  | .local _ .vmem, ⟨12, _⟩ => ⟨S16384x384, .bf16⟩
  | .local _ .vmem, ⟨13, _⟩ => ⟨S384, .f32⟩
  | .local _ .vmem, ⟨14, _⟩ => ⟨S128x512, .bf16⟩
  | .local _ .vmem, ⟨15, _⟩ => ⟨S384x512, .bf16⟩
  | .local _ .vmem, ⟨16, _⟩ => ⟨S512, .f32⟩
  | .local _ .vmem, ⟨17, _⟩ => ⟨S64x512, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![8], ![false]⟩

def k0_off1 (c0_i32 : BitVec 32) : Fin 3 → Nat :=
  let c0 : Index := 0#32
  let c512_i32 : BitVec 32 := 512#32
  let v1 : BitVec 32 := Scalar.muli c0_i32 c512_i32
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16384x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  h_S8x512x128 : 0 < S8x512x128.numel
  reduces_S8x512x128_S8x128 : S8x512x128.Reduces [1] S8x128
  inb_S8x128_S8x128_0_0 : ∀ a, (![0, 0] : Fin 2 → Nat) a + S8x128.size a ≤ S8x128.size a
  h_S8x128 : 0 < S8x128.numel
  shapeCasts_S8x128_S8x1x128 : S8x128.ShapeCasts S8x1x128
  broadcasts_S8x1x128_S8x512x128 : S8x1x128.Broadcasts S8x512x128
  bitsLt_bf16_f32 : FTy.bits .bf16 < FTy.bits .f32
  inb_S8x128x128_S8x128x128_0_0_0 : ∀ a, (![0, 0, 0] : Fin 3 → Nat) a + S8x128x128.size a ≤ S8x128x128.size a
  h_S8x128x128 : 0 < S8x128x128.numel
  shapeCasts_S64x128x128_S64x16384 : S64x128x128.ShapeCasts S64x16384
  transposes_S384x16384_S16384x384_1_0 : S384x16384.Transposes [1, 0] S16384x384
  transposes_S512x512_S512x512_1_0 : S512x512.Transposes [1, 0] S512x512
  slices_S512x512_S128x512_0_0 : S512x512.Slices ![0, 0] S128x512
  slices_S512x512_S384x512_128_0 : S512x512.Slices ![128, 0] S384x512
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S16384x384_S16384x384_0_0 : ∀ a, (![0, 0] : Fin 2 → Nat) a + S16384x384.size a ≤ S16384x384.size a
  h_S16384x384 : 0 < S16384x384.numel
  shapeCasts_S16384x384_S16384x384 : S16384x384.ShapeCasts S16384x384
  inb_S384_S384_0 : ∀ a, (![0] : Fin 1 → Nat) a + S384.size a ≤ S384.size a
  h_S384 : 0 < S384.numel
  shapeCasts_S384_S1x384 : S384.ShapeCasts S1x384
  broadcasts_S1x384_S64x384 : S1x384.Broadcasts S64x384
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  dot_S8x512x128_S8x512x128_S8x128x128_1_1_2_2_0_0_wf : DotDims.WF S8x512x128 S8x512x128 S8x128x128 [1] [1] [2] [2] [0] [0]
  dot_S64x16384_S16384x384_S64x384_1_0_0_1_n_n_wf : DotDims.WF S64x16384 S16384x384 S64x384 [1] [0] [0] [1] [] []
  dot_S64x128_S128x512_S64x512_1_0_0_1_n_n_wf : DotDims.WF S64x128 S128x512 S64x512 [1] [0] [0] [1] [] []
  dot_S64x384_S384x512_S64x512_1_0_0_1_n_n_wf : DotDims.WF S64x384 S384x512 S64x512 [1] [0] [0] [1] [] []
  hrank0 : 0 < grid0.rank
  k0_off1_inb : ∀ (r : Fin 8), ∀ a, (k0_off1 (BitVec.ofNat 32 r.val)) a + S8x512x128.size a ≤ S8x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096x128.size a ≤ S64x4096x128.size a
  hwx0_0 : ∀ i : grid0.Coords, EltTy.bits .f32 = 32 ∨ (Rect.block (s := S64x4096x128) S8x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x128.size a
  hwx0_1 : ∀ i : grid0.Coords, EltTy.bits .f32 = 32 ∨ (Rect.block (s := S64x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S64x128.size a
  hwx0_3 : ∀ i : grid0.Coords, EltTy.bits .f32 = 32 ∨ (Rect.block (s := S64x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x128.size a ≤ S64x128x128.size a
  hwx0_4 : ∀ i : grid0.Coords, EltTy.bits .f32 = 32 ∨ (Rect.block (s := S64x128x128) S8x128x128.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x128.size a
  hwx1_0 : ∀ i : grid1.Coords, EltTy.bits .f32 = 32 ∨ (Rect.block (s := S64x128) S64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16384.size a ≤ S64x16384.size a
  hwx1_1 : ∀ i : grid1.Coords, EltTy.bits .f32 = 32 ∨ (Rect.block (s := S64x16384) S64x16384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16384x384.size a ≤ S16384x384.size a
  hwx1_2 : ∀ i : grid1.Coords, EltTy.bits .bf16 = 32 ∨ (Rect.block (s := S16384x384) S16384x384.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S384.size a ≤ S384.size a
  hwx1_3 : ∀ i : grid1.Coords, EltTy.bits .f32 = 32 ∨ (Rect.block (s := S384) S384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S128x512.size a
  hwx1_4 : ∀ i : grid1.Coords, EltTy.bits .bf16 = 32 ∨ (Rect.block (s := S128x512) S128x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x512.size a ≤ S384x512.size a
  hwx1_5 : ∀ i : grid1.Coords, EltTy.bits .bf16 = 32 ∨ (Rect.block (s := S384x512) S384x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x512.size a ≤ S64x512.size a
  hwx1_7 : ∀ i : grid1.Coords, EltTy.bits .f32 = 32 ∨ (Rect.block (s := S64x512) S64x512.size (cc1_transform_7 i) (hinb1_7 i)).WholeWords (EltTy.packing .f32)

variable [Facts₀]

def dot_S8x512x128_S8x512x128_S8x128x128_1_1_2_2_0_0 : DotDims S8x512x128 S8x512x128 S8x128x128 where
  lhsContracting := [1]
  rhsContracting := [1]
  lhsNonContracting := [2]
  rhsNonContracting := [2]
  lhsBatch := [0]
  rhsBatch := [0]
  wf := dot_S8x512x128_S8x512x128_S8x128x128_1_1_2_2_0_0_wf
def dot_S64x16384_S16384x384_S64x384_1_0_0_1_n_n : DotDims S64x16384 S16384x384 S64x384 where
  lhsContracting := [1]
  rhsContracting := [0]
  lhsNonContracting := [0]
  rhsNonContracting := [1]
  lhsBatch := []
  rhsBatch := []
  wf := dot_S64x16384_S16384x384_S64x384_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf
def dot_S64x384_S384x512_S64x512_1_0_0_1_n_n : DotDims S64x384 S384x512 S64x512 where
  lhsContracting := [1]
  rhsContracting := [0]
  lhsNonContracting := [0]
  rhsNonContracting := [1]
  lhsBatch := []
  rhsBatch := []
  wf := dot_S64x384_S384x512_S64x512_1_0_0_1_n_n_wf

abbrev win0_0 : Pipeline.Window sig grid0 :=
  Pipeline.Window.ofSpec (Memref.whole main_arg0) S8x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S8x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_2) S64x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x16384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S16384x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S128x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S384x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S64x512.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x4096x128 : Shape := ⟨3, ![64, 4096, 128]⟩
abbrev S384x16384 : Shape := ⟨2, ![384, 16384]⟩
abbrev S384 : Shape := ⟨1, ![384]⟩
abbrev S512x512 : Shape := ⟨2, ![512, 512]⟩
abbrev S512 : Shape := ⟨1, ![512]⟩
abbrev S_ : Shape := ⟨0, ![]⟩
abbrev S64x128 : Shape := ⟨2, ![64, 128]⟩
abbrev S64x1x128 : Shape := ⟨3, ![64, 1, 128]⟩
abbrev S64x128x128 : Shape := ⟨3, ![64, 128, 128]⟩
abbrev S64x16384 : Shape := ⟨2, ![64, 16384]⟩
abbrev S16384x384 : Shape := ⟨2, ![16384, 384]⟩
abbrev S64x384 : Shape := ⟨2, ![64, 384]⟩
abbrev S1x384 : Shape := ⟨2, ![1, 384]⟩
abbrev S64x512 : Shape := ⟨2, ![64, 512]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S384x16384, .f32⟩
  | .hbm, ⟨2, _⟩ => ⟨S384, .f32⟩
  | .hbm, ⟨3, _⟩ => ⟨S512x512, .f32⟩
  | .hbm, ⟨4, _⟩ => ⟨S512, .f32⟩
  | .hbm, ⟨5, _⟩ => ⟨S_, .f32⟩
  | .hbm, ⟨6, _⟩ => ⟨S64x128, .f32⟩
  | .hbm, ⟨7, _⟩ => ⟨S64x1x128, .f32⟩
  | .hbm, ⟨8, _⟩ => ⟨S_, .f32⟩
  | .hbm, ⟨9, _⟩ => ⟨S64x1x128, .f32⟩
  | .hbm, ⟨10, _⟩ => ⟨S64x1x128, .f32⟩
  | .hbm, ⟨11, _⟩ => ⟨S64x4096x128, .f32⟩
  | .hbm, ⟨12, _⟩ => ⟨S64x4096x128, .f32⟩
  | .hbm, ⟨13, _⟩ => ⟨S64x4096x128, .f32⟩
  | .hbm, ⟨14, _⟩ => ⟨S64x4096x128, .f32⟩
  | .hbm, ⟨15, _⟩ => ⟨S_, .f32⟩
  | .hbm, ⟨16, _⟩ => ⟨S64x128, .f32⟩
  | .hbm, ⟨17, _⟩ => ⟨S_, .f32⟩
  | .hbm, ⟨18, _⟩ => ⟨S64x128, .f32⟩
  | .hbm, ⟨19, _⟩ => ⟨S64x128, .f32⟩
  | .hbm, ⟨20, _⟩ => ⟨S64x4096x128, .f32⟩
  | .hbm, ⟨21, _⟩ => ⟨S_, .f32⟩
  | .hbm, ⟨22, _⟩ => ⟨S64x128, .f32⟩
  | .hbm, ⟨23, _⟩ => ⟨S64x1x128, .f32⟩
  | .hbm, ⟨24, _⟩ => ⟨S_, .f32⟩
  | .hbm, ⟨25, _⟩ => ⟨S64x1x128, .f32⟩
  | .hbm, ⟨26, _⟩ => ⟨S64x1x128, .f32⟩
  | .hbm, ⟨27, _⟩ => ⟨S64x4096x128, .f32⟩
  | .hbm, ⟨28, _⟩ => ⟨S64x4096x128, .f32⟩
  | .hbm, ⟨29, _⟩ => ⟨S64x128x128, .f32⟩
  | .hbm, ⟨30, _⟩ => ⟨S_, .f32⟩
  | .hbm, ⟨31, _⟩ => ⟨S64x128x128, .f32⟩
  | .hbm, ⟨32, _⟩ => ⟨S64x128x128, .f32⟩
  | .hbm, ⟨33, _⟩ => ⟨S64x16384, .f32⟩
  | .hbm, ⟨34, _⟩ => ⟨S16384x384, .f32⟩
  | .hbm, ⟨35, _⟩ => ⟨S64x384, .f32⟩
  | .hbm, ⟨36, _⟩ => ⟨S1x384, .f32⟩
  | .hbm, ⟨37, _⟩ => ⟨S64x384, .f32⟩
  | .hbm, ⟨38, _⟩ => ⟨S64x384, .f32⟩
  | .hbm, ⟨39, _⟩ => ⟨S64x512, .f32⟩
  | .hbm, ⟨40, _⟩ => ⟨S512x512, .f32⟩
  | .hbm, ⟨41, _⟩ => ⟨S64x512, .f32⟩
  | .hbm, ⟨42, _⟩ => ⟨S1x512, .f32⟩
  | .hbm, ⟨43, _⟩ => ⟨S64x512, .f32⟩
  | .hbm, ⟨44, _⟩ => ⟨S64x512, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  reducesTo_S64x4096x128_S64x128_d1 : S64x4096x128.ReducesTo [1] S64x128
  h_S_ : 0 < S_.numel
  bcast_S64x128_S64x1x128_0_2 : S64x128.BroadcastsInDim S64x1x128 (![0, 2] : Fin 2 → Fin S64x1x128.rank)
  bcast_S_S64x1x128 : S_.BroadcastsInDim S64x1x128 (![] : Fin 0 → Fin S64x1x128.rank)
  bcast_S64x1x128_S64x4096x128_0_1_2 : S64x1x128.BroadcastsInDim S64x4096x128 (![0, 1, 2] : Fin 3 → Fin S64x4096x128.rank)
  bcast_S_S64x128 : S_.BroadcastsInDim S64x128 (![] : Fin 0 → Fin S64x128.rank)
  bcast_S_S64x128x128 : S_.BroadcastsInDim S64x128x128 (![] : Fin 0 → Fin S64x128x128.rank)
  shapeCasts_S64x128x128_S64x16384 : S64x128x128.ShapeCasts S64x16384
  transposes_S384x16384_S16384x384_1_0 : S384x16384.Transposes [1, 0] S16384x384
  bcast_S384_S1x384_1 : S384.BroadcastsInDim S1x384 (![1] : Fin 1 → Fin S1x384.rank)
  bcast_S1x384_S64x384_0_1 : S1x384.BroadcastsInDim S64x384 (![0, 1] : Fin 2 → Fin S64x384.rank)
  concatenates_S64x128_S64x384_S64x512_d1 : Shape.Concatenates [S64x128, S64x384] S64x512 1
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  dot_S64x4096x128_S64x4096x128_S64x128x128_1_1_2_2_0_0_wf : DotDims.WF S64x4096x128 S64x4096x128 S64x128x128 [1] [1] [2] [2] [0] [0]
  dot_S64x16384_S16384x384_S64x384_1_0_0_1_n_n_wf : DotDims.WF S64x16384 S16384x384 S64x384 [1] [0] [0] [1] [] []
  dot_S64x512_S512x512_S64x512_1_0_0_1_n_n_wf : DotDims.WF S64x512 S512x512 S64x512 [1] [0] [0] [1] [] []

variable [Facts₀]

def dot_S64x4096x128_S64x4096x128_S64x128x128_1_1_2_2_0_0 : DotDims S64x4096x128 S64x4096x128 S64x128x128 where
  lhsContracting := [1]
  rhsContracting := [1]
  lhsNonContracting := [2]
  rhsNonContracting := [2]
  lhsBatch := [0]
  rhsBatch := [0]
  wf := dot_S64x4096x128_S64x4096x128_S64x128x128_1_1_2_2_0_0_wf
def dot_S64x16384_S16384x384_S64x384_1_0_0_1_n_n : DotDims S64x16384 S16384x384 S64x384 where
  lhsContracting := [1]
  rhsContracting := [0]
  lhsNonContracting := [0]
  rhsNonContracting := [1]
  lhsBatch := []
  rhsBatch := []
  wf := dot_S64x16384_S16384x384_S64x384_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf

class Facts : Prop extends Facts₀ where

variable [Facts]
-- ==== Proof.KernelRun.lean ====
/-
  The idealized kernel's run, with its result array named.

  The program is two launches with a stretch of host operations between them. Every weakly fair execution terminates with
  every buffer of the TensorCore at the contents of the last boundary: the launch memory folded through the first launch's
  write-backs, the host stretch, and the second launch's write-backs. Read at the five arguments that is the frame; read at
  the result buffer it names the result, which is what the value proof starts from.
-/
import proofs.«112801_j59837484368487_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the five arguments as launched. -/
theorem result : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Run

end
-- ==== Proof.ProjectBlocks.lean ====
import proofs.«112801_j59837484368487_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjectValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-!
  The second launch has a grid of one point, and every one of its eight windows is a single block that is the whole
  array (block index 0 on every axis). So the block a window stages is the array itself, the one write-back overwrites the
  whole result array, and the result array after the launch is the body's store applied to the seven input arrays as the
  launch finds them.
-/

variable {F : FTy → Type} [FloatOps F]
variable (V : (c : Dev nD) → (b : Ref sig .tc) → Buf (Elt F) ((c : Thread nD τ).loc b))

/-- Every window's block index is 0 on every axis, at the grid's one point. -/
theorem origin : ∀ t : Fin cfg1.N, (∀ a, win1_0.index t a = 0) ∧ (∀ a, win1_1.index t a = 0) ∧ (∀ a, win1_2.index t a = 0)
    ∧ (∀ a, win1_3.index t a = 0) ∧ (∀ a, win1_4.index t a = 0) ∧ (∀ a, win1_5.index t a = 0) ∧ (∀ a, win1_6.index t a = 0)
    ∧ (∀ a, win1_7.index t a = 0) :=
  (by decide +kernel : ∀ t : Fin grid1.N, _)

/-- Window 0's one block is its whole array: a position inside the block is the same position of the array. -/
theorem emb0 (t : Fin cfg1.N) (y : S64x128.Idx) : ((cfg1.win 0).blk t).view.emb y = y := by
  funext a; apply Fin.ext
  match a with
  | ⟨0, _⟩ => show win1_0.index t (0 : Fin 2) * 64 + 1 * (y 0).val = (y 0).val; rw [(origin t).1 0]; omega
  | ⟨1, _⟩ => show win1_0.index t (1 : Fin 2) * 128 + 1 * (y 1).val = (y 1).val; rw [(origin t).1 1]; omega

/-- Window 1's one block is its whole array: a position inside the block is the same position of the array. -/
theorem emb1 (t : Fin cfg1.N) (y : S64x16384.Idx) : ((cfg1.win 1).blk t).view.emb y = y := by
  funext a; apply Fin.ext
  match a with
  | ⟨0, _⟩ => show win1_1.index t (0 : Fin 2) * 64 + 1 * (y 0).val = (y 0).val; rw [(origin t).2.1 0]; omega
  | ⟨1, _⟩ => show win1_1.index t (1 : Fin 2) * 16384 + 1 * (y 1).val = (y 1).val; rw [(origin t).2.1 1]; omega

/-- Window 2's one block is its whole array: a position inside the block is the same position of the array. -/
theorem emb2 (t : Fin cfg1.N) (y : S16384x384.Idx) : ((cfg1.win 2).blk t).view.emb y = y := by
  funext a; apply Fin.ext
  match a with
  | ⟨0, _⟩ => show win1_2.index t (0 : Fin 2) * 16384 + 1 * (y 0).val = (y 0).val; rw [(origin t).2.2.1 0]; omega
  | ⟨1, _⟩ => show win1_2.index t (1 : Fin 2) * 384 + 1 * (y 1).val = (y 1).val; rw [(origin t).2.2.1 1]; omega

/-- Window 3's one block is its whole array: a position inside the block is the same position of the array. -/
theorem emb3 (t : Fin cfg1.N) (y : S384.Idx) : ((cfg1.win 3).blk t).view.emb y = y := by
  funext a; apply Fin.ext
  match a with
  | ⟨0, _⟩ => show win1_3.index t (0 : Fin 1) * 384 + 1 * (y 0).val = (y 0).val; rw [(origin t).2.2.2.1 0]; omega

/-- Window 4's one block is its whole array: a position inside the block is the same position of the array. -/
theorem emb4 (t : Fin cfg1.N) (y : S128x512.Idx) : ((cfg1.win 4).blk t).view.emb y = y := by
  funext a; apply Fin.ext
  match a with
  | ⟨0, _⟩ => show win1_4.index t (0 : Fin 2) * 128 + 1 * (y 0).val = (y 0).val; rw [(origin t).2.2.2.2.1 0]; omega
  | ⟨1, _⟩ => show win1_4.index t (1 : Fin 2) * 512 + 1 * (y 1).val = (y 1).val; rw [(origin t).2.2.2.2.1 1]; omega

/-- Window 5's one block is its whole array: a position inside the block is the same position of the array. -/
theorem emb5 (t : Fin cfg1.N) (y : S384x512.Idx) : ((cfg1.win 5).blk t).view.emb y = y := by
  funext a; apply Fin.ext
  match a with
  | ⟨0, _⟩ => show win1_5.index t (0 : Fin 2) * 384 + 1 * (y 0).val = (y 0).val; rw [(origin t).2.2.2.2.2.1 0]; omega
  | ⟨1, _⟩ => show win1_5.index t (1 : Fin 2) * 512 + 1 * (y 1).val = (y 1).val; rw [(origin t).2.2.2.2.2.1 1]; omega

/-- Window 6's one block is its whole array: a position inside the block is the same position of the array. -/
theorem emb6 (t : Fin cfg1.N) (y : S512.Idx) : ((cfg1.win 6).blk t).view.emb y = y := by
  funext a; apply Fin.ext
  match a with
  | ⟨0, _⟩ => show win1_6.index t (0 : Fin 1) * 512 + 1 * (y 0).val = (y 0).val; rw [(origin t).2.2.2.2.2.2.1 0]; omega

/-- Window 7's one block is its whole array: a position inside the block is the same position of the array. -/
theorem emb7 (t : Fin cfg1.N) (y : S64x512.Idx) : ((cfg1.win 7).blk t).view.emb y = y := by
  funext a; apply Fin.ext
  match a with
  | ⟨0, _⟩ => show win1_7.index t (0 : Fin 2) * 64 + 1 * (y 0).val = (y 0).val; rw [(origin t).2.2.2.2.2.2.2 0]; omega
  | ⟨1, _⟩ => show win1_7.index t (1 : Fin 2) * 512 + 1 * (y 1).val = (y 1).val; rw [(origin t).2.2.2.2.2.2.2 1]; omega

/-! The block each input window stages is the array the launch finds. -/

theorem block0 (c : Dev nD) (t : Fin cfg1.N) : iblk1 V c 0 t = V c (Pipeline.arrRef spec1 0) := by
  funext y
  unfold iblk1
  show V c (Pipeline.arrRef spec1 0) (((cfg1.win 0).blk t).view.emb y) = V c (Pipeline.arrRef spec1 0) y
  exact congrArg _ (emb0 t y)

theorem block1 (c : Dev nD) (t : Fin cfg1.N) : iblk1 V c 1 t = V c (Pipeline.arrRef spec1 1) := by
  funext y
  unfold iblk1
  show V c (Pipeline.arrRef spec1 1) (((cfg1.win 1).blk t).view.emb y) = V c (Pipeline.arrRef spec1 1) y
  exact congrArg _ (emb1 t y)

theorem block2 (c : Dev nD) (t : Fin cfg1.N) : iblk1 V c 2 t = V c (Pipeline.arrRef spec1 2) := by
  funext y
  unfold iblk1
  show V c (Pipeline.arrRef spec1 2) (((cfg1.win 2).blk t).view.emb y) = V c (Pipeline.arrRef spec1 2) y
  exact congrArg _ (emb2 t y)

theorem block3 (c : Dev nD) (t : Fin cfg1.N) : iblk1 V c 3 t = V c (Pipeline.arrRef spec1 3) := by
  funext y
  unfold iblk1
  show V c (Pipeline.arrRef spec1 3) (((cfg1.win 3).blk t).view.emb y) = V c (Pipeline.arrRef spec1 3) y
  exact congrArg _ (emb3 t y)

theorem block4 (c : Dev nD) (t : Fin cfg1.N) : iblk1 V c 4 t = V c (Pipeline.arrRef spec1 4) := by
  funext y
  unfold iblk1
  show V c (Pipeline.arrRef spec1 4) (((cfg1.win 4).blk t).view.emb y) = V c (Pipeline.arrRef spec1 4) y
  exact congrArg _ (emb4 t y)

theorem block5 (c : Dev nD) (t : Fin cfg1.N) : iblk1 V c 5 t = V c (Pipeline.arrRef spec1 5) := by
  funext y
  unfold iblk1
  show V c (Pipeline.arrRef spec1 5) (((cfg1.win 5).blk t).view.emb y) = V c (Pipeline.arrRef spec1 5) y
  exact congrArg _ (emb5 t y)

theorem block6 (c : Dev nD) (t : Fin cfg1.N) : iblk1 V c 6 t = V c (Pipeline.arrRef spec1 6) := by
  funext y
  unfold iblk1
  show V c (Pipeline.arrRef spec1 6) (((cfg1.win 6).blk t).view.emb y) = V c (Pipeline.arrRef spec1 6) y
  exact congrArg _ (emb6 t y)

/-- What the one point writes back is the body's store of the seven input arrays, read through the (whole) block. -/
theorem writeback (c : Dev nD) (t : Fin cfg1.N) :
    (dat1 (F := F) V c).flushed 7 t = ((cfg1.win 7).blk t).view.read (Elt F)
      (out1_7 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6))) := by
  show (cfg1.win 7).cut (grid1.coords t) ((dat1 V c).after 7 t) = _
  rw [after1_7, block0 V c t, block1 V c t, block2 V c t, block3 V c t, block4 V c t, block5 V c t, block6 V c t]
  generalize out1_7 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) = G
  funext y
  show G y = G (((cfg1.win 7).blk t).view.emb y)
  rw [emb7]

/-- The one block covers the result array. -/
theorem covered (i : S64x512.Idx) :
    ∃ t : Fin cfg1.N, (cfg1.win 7).flush t = true ∧ i ∈ ((cfg1.win 7).blk t).view.set := by
  refine ⟨t1_0, flush1_7 t1_0, ?_⟩
  show i ∈ ((View.whole main_v8).slice (win1_7.rect t1_0)).set
  rw [View.set_slice_whole, Rect.mem_set_unit]
  intro a
  match a with
  | ⟨0, _⟩ =>
    show win1_7.index t1_0 (0 : Fin 2) * 64 ≤ (i 0).val ∧ (i 0).val < win1_7.index t1_0 (0 : Fin 2) * 64 + 64
    rw [(origin t1_0).2.2.2.2.2.2.2 0]; have h : (i 0).val < 64 := (i 0).isLt; omega
  | ⟨1, _⟩ =>
    show win1_7.index t1_0 (1 : Fin 2) * 512 ≤ (i 1).val ∧ (i 1).val < win1_7.index t1_0 (1 : Fin 2) * 512 + 512
    rw [(origin t1_0).2.2.2.2.2.2.2 1]; have h : (i 1).val < 512 := (i 1).isLt; omega

/-- THE RESULT ARRAY after the second launch: the body's store of the seven input arrays as the launch finds them. -/
theorem result_array (c : Dev nD) :
    (dat1 (F := F) V c).arrAt 7 cfg1.N
      = out1_7 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) :=
  (dat1 V c).arrAt_eq_of_cover 7 _ (fun t _ => writeback V c t) covered

end Cert.KernelIdeal.ProjectValue

end
-- ==== Proof.ProjectPayload.lean ====
import proofs.«112801_j59837484368487_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjectValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-!
  What the second launch's body stores, entry by entry, at the ideal instance. The body projects the flattened matrix row
  (16384 entries) onto 384 outputs and adds a bias, then contracts the 128 kurtosis entries and those 384 entries against
  the two row blocks of the last weight and adds the last bias. Changes of float format are the identity here, the three
  products start from a zero accumulator, and the two biases are rows repeated down the 64 batches.
-/

theorem zeros2 : (![0, 0] : Fin 2 → Nat) = fun _ => 0 := funext fun a => by fin_cases a <;> rfl
theorem zeros1 : (![0] : Fin 1 → Nat) = fun _ => 0 := funext fun a => by fin_cases a <;> rfl

/-- The body's one store fills the whole result block from whole-block loads of the seven inputs. -/
theorem store_eq {F : FTy → Type} [FloatOps F] (x0 : Vec F S64x128 .f32) (x1 : Vec F S64x16384 .f32) (x2 : Vec F S16384x384 .bf16)
    (x3 : Vec F S384 .f32) (x4 : Vec F S128x512 .bf16) (x5 : Vec F S384x512 .bf16) (x6 : Vec F S512 .f32) :
    out1_7 x0 x1 x2 x3 x4 x5 x6 = k1_pay1 x1 x2 x3 x0 x4 x5 x6 := by
  unfold out1_7
  rw [View.canon_unit_zero zeros2]
  simp only [View.ld_unit_zero (S := S64x16384) zeros2, View.ld_unit_zero (S := S16384x384) zeros2,
    View.ld_unit_zero (S := S384) zeros1, View.ld_unit_zero (S := S64x128) zeros2, View.ld_unit_zero (S := S128x512) zeros2,
    View.ld_unit_zero (S := S384x512) zeros2, View.ld_unit_zero (S := S512) zeros1]

/-- A 64 x 16384 by 16384 x 384 product into a zero accumulator, read at `(b, o)`: the sum over the contracted axis. -/
theorem product_flat {φ₁ φ₂ : FTy} (l : FVec Ideal S64x16384 φ₁) (r : FVec Ideal S16384x384 φ₂) (b : Fin 64) (o : Fin 384) :
    matmul dot_S64x16384_S16384x384_S64x384_1_0_0_1_n_n none l r (constant S64x384 .f32 0x00000000#32) (ix2 b o) = ∑ k : Fin 16384, l (ix2 b k) * r (ix2 k o) := by
  simp only [matmul]
  rw [Ideal.matmul_constant_zero_apply, ← Equiv.sum_comp (contrEquiv1 dot_S64x16384_S16384x384_S64x384_1_0_0_1_n_n 16384 rfl rfl).symm]
  refine Finset.sum_congr rfl fun k _ => ?_
  have hk := contrEquiv1_symm_val dot_S64x16384_S16384x384_S64x384_1_0_0_1_n_n 16384 rfl rfl k
  have el : dot_S64x16384_S16384x384_S64x384_1_0_0_1_n_n.lhsIdx (ix2 b o) ((contrEquiv1 dot_S64x16384_S16384x384_S64x384_1_0_0_1_n_n 16384 rfl rfl).symm k) = ix2 b k := funext fun a => Fin.ext (by
    match a with
    | ⟨0, _⟩ =>
      show (dot_S64x16384_S16384x384_S64x384_1_0_0_1_n_n.lhsIdx (ix2 b o) _ 0).val = b.val
      unfold DotDims.lhsIdx
      rw [dif_neg (show ¬(0 : Fin S64x16384.rank) ∈ dot_S64x16384_S16384x384_S64x384_1_0_0_1_n_n.lhsBatch by decide), dif_pos (show (0 : Fin S64x16384.rank) ∈ dot_S64x16384_S16384x384_S64x384_1_0_0_1_n_n.lhsNonContracting by decide)]
      rfl
    | ⟨1, _⟩ => exact (dot_S64x16384_S16384x384_S64x384_1_0_0_1_n_n.lhsIdx_val_of_single rfl _ _).trans hk)
  have er : dot_S64x16384_S16384x384_S64x384_1_0_0_1_n_n.rhsIdx (ix2 b o) ((contrEquiv1 dot_S64x16384_S16384x384_S64x384_1_0_0_1_n_n 16384 rfl rfl).symm k) = ix2 k o := funext fun a => Fin.ext (by
    match a with
    | ⟨0, _⟩ => exact (dot_S64x16384_S16384x384_S64x384_1_0_0_1_n_n.rhsIdx_val_of_single rfl _ _).trans hk
    | ⟨1, _⟩ =>
      show (dot_S64x16384_S16384x384_S64x384_1_0_0_1_n_n.rhsIdx (ix2 b o) _ 1).val = o.val
      unfold DotDims.rhsIdx
      rw [dif_neg (show ¬(1 : Fin S16384x384.rank) ∈ dot_S64x16384_S16384x384_S64x384_1_0_0_1_n_n.rhsBatch by decide), dif_pos (show (1 : Fin S16384x384.rank) ∈ dot_S64x16384_S16384x384_S64x384_1_0_0_1_n_n.rhsNonContracting by decide)]
      rfl)
  rw [el, er]

/-- A 64 x 128 by 128 x 512 product into a zero accumulator, read at `(b, o)`: the sum over the contracted axis. -/
theorem product_kurt {φ₁ φ₂ : FTy} (l : FVec Ideal S64x128 φ₁) (r : FVec Ideal S128x512 φ₂) (b : Fin 64) (o : Fin 512) :
    matmul dot_S64x128_S128x512_S64x512_1_0_0_1_n_n none l r (constant S64x512 .f32 0x00000000#32) (ix2 b o) = ∑ k : Fin 128, l (ix2 b k) * r (ix2 k o) := by
  simp only [matmul]
  rw [Ideal.matmul_constant_zero_apply, ← Equiv.sum_comp (contrEquiv1 dot_S64x128_S128x512_S64x512_1_0_0_1_n_n 128 rfl rfl).symm]
  refine Finset.sum_congr rfl fun k _ => ?_
  have hk := contrEquiv1_symm_val dot_S64x128_S128x512_S64x512_1_0_0_1_n_n 128 rfl rfl k
  have el : dot_S64x128_S128x512_S64x512_1_0_0_1_n_n.lhsIdx (ix2 b o) ((contrEquiv1 dot_S64x128_S128x512_S64x512_1_0_0_1_n_n 128 rfl rfl).symm k) = ix2 b k := funext fun a => Fin.ext (by
    match a with
    | ⟨0, _⟩ =>
      show (dot_S64x128_S128x512_S64x512_1_0_0_1_n_n.lhsIdx (ix2 b o) _ 0).val = b.val
      unfold DotDims.lhsIdx
      rw [dif_neg (show ¬(0 : Fin S64x128.rank) ∈ dot_S64x128_S128x512_S64x512_1_0_0_1_n_n.lhsBatch by decide), dif_pos (show (0 : Fin S64x128.rank) ∈ dot_S64x128_S128x512_S64x512_1_0_0_1_n_n.lhsNonContracting by decide)]
      rfl
    | ⟨1, _⟩ => exact (dot_S64x128_S128x512_S64x512_1_0_0_1_n_n.lhsIdx_val_of_single rfl _ _).trans hk)
  have er : dot_S64x128_S128x512_S64x512_1_0_0_1_n_n.rhsIdx (ix2 b o) ((contrEquiv1 dot_S64x128_S128x512_S64x512_1_0_0_1_n_n 128 rfl rfl).symm k) = ix2 k o := funext fun a => Fin.ext (by
    match a with
    | ⟨0, _⟩ => exact (dot_S64x128_S128x512_S64x512_1_0_0_1_n_n.rhsIdx_val_of_single rfl _ _).trans hk
    | ⟨1, _⟩ =>
      show (dot_S64x128_S128x512_S64x512_1_0_0_1_n_n.rhsIdx (ix2 b o) _ 1).val = o.val
      unfold DotDims.rhsIdx
      rw [dif_neg (show ¬(1 : Fin S128x512.rank) ∈ dot_S64x128_S128x512_S64x512_1_0_0_1_n_n.rhsBatch by decide), dif_pos (show (1 : Fin S128x512.rank) ∈ dot_S64x128_S128x512_S64x512_1_0_0_1_n_n.rhsNonContracting by decide)]
      rfl)
  rw [el, er]

/-- A 64 x 384 by 384 x 512 product into a zero accumulator, read at `(b, o)`: the sum over the contracted axis. -/
theorem product_proj {φ₁ φ₂ : FTy} (l : FVec Ideal S64x384 φ₁) (r : FVec Ideal S384x512 φ₂) (b : Fin 64) (o : Fin 512) :
    matmul dot_S64x384_S384x512_S64x512_1_0_0_1_n_n none l r (constant S64x512 .f32 0x00000000#32) (ix2 b o) = ∑ k : Fin 384, l (ix2 b k) * r (ix2 k o) := by
  simp only [matmul]
  rw [Ideal.matmul_constant_zero_apply, ← Equiv.sum_comp (contrEquiv1 dot_S64x384_S384x512_S64x512_1_0_0_1_n_n 384 rfl rfl).symm]
  refine Finset.sum_congr rfl fun k _ => ?_
  have hk := contrEquiv1_symm_val dot_S64x384_S384x512_S64x512_1_0_0_1_n_n 384 rfl rfl k
  have el : dot_S64x384_S384x512_S64x512_1_0_0_1_n_n.lhsIdx (ix2 b o) ((contrEquiv1 dot_S64x384_S384x512_S64x512_1_0_0_1_n_n 384 rfl rfl).symm k) = ix2 b k := funext fun a => Fin.ext (by
    match a with
    | ⟨0, _⟩ =>
      show (dot_S64x384_S384x512_S64x512_1_0_0_1_n_n.lhsIdx (ix2 b o) _ 0).val = b.val
      unfold DotDims.lhsIdx
      rw [dif_neg (show ¬(0 : Fin S64x384.rank) ∈ dot_S64x384_S384x512_S64x512_1_0_0_1_n_n.lhsBatch by decide), dif_pos (show (0 : Fin S64x384.rank) ∈ dot_S64x384_S384x512_S64x512_1_0_0_1_n_n.lhsNonContracting by decide)]
      rfl
    | ⟨1, _⟩ => exact (dot_S64x384_S384x512_S64x512_1_0_0_1_n_n.lhsIdx_val_of_single rfl _ _).trans hk)
  have er : dot_S64x384_S384x512_S64x512_1_0_0_1_n_n.rhsIdx (ix2 b o) ((contrEquiv1 dot_S64x384_S384x512_S64x512_1_0_0_1_n_n 384 rfl rfl).symm k) = ix2 k o := funext fun a => Fin.ext (by
    match a with
    | ⟨0, _⟩ => exact (dot_S64x384_S384x512_S64x512_1_0_0_1_n_n.rhsIdx_val_of_single rfl _ _).trans hk
    | ⟨1, _⟩ =>
      show (dot_S64x384_S384x512_S64x512_1_0_0_1_n_n.rhsIdx (ix2 b o) _ 1).val = o.val
      unfold DotDims.rhsIdx
      rw [dif_neg (show ¬(1 : Fin S384x512.rank) ∈ dot_S64x384_S384x512_S64x512_1_0_0_1_n_n.rhsBatch by decide), dif_pos (show (1 : Fin S384x512.rank) ∈ dot_S64x384_S384x512_S64x512_1_0_0_1_n_n.rhsNonContracting by decide)]
      rfl)
  rw [el, er]

end Cert.KernelIdeal.ProjectValue

end
-- ==== Proof.ProjectInputs.lean ====
import proofs.«112801_j59837484368487_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«112801_j59837484368487_1_alg».proof.Proof.ProjectPayload
import Idealize.ShloMosaic.Lib.StableHlo.Run
set_option maxRecDepth 16384

noncomputable section

open scoped BigOperators

namespace Cert.KernelIdeal.ProjectValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-!
  The body's value at an output entry, and the seven arrays the second launch finds.

  Between the two launches the host flattens the 64 x 128 x 128 matrix array to 64 x 16384, transposes the two weights
  (changing their float format, which is the identity here), and cuts the transposed last weight into its first 128 and
  its last 384 rows. The kurtosis array is the first launch's third output untouched; the two biases are arguments, which
  nothing has written.
-/

open Idealize.ShloMosaic.StableHlo

/-- The stored value at entry `(b, o)`: the 128 kurtosis entries against the first row block of the last weight, plus the
    384 projected entries (each a 16384-term contraction plus its bias) against the second row block, plus the last bias. -/
theorem stored_apply (v0 : Vec Ideal S64x16384 .f32) (v3 : Vec Ideal S16384x384 .bf16) (v6 : Vec Ideal S384 .f32)
    (v10 : Vec Ideal S64x128 .f32) (v14 : Vec Ideal S128x512 .bf16) (v17 : Vec Ideal S384x512 .bf16) (v21 : Vec Ideal S512 .f32)
    (b : Fin 64) (o : Fin 512) :
    k1_pay1 (F := Ideal) v0 v3 v6 v10 v14 v17 v21 (ix2 b o)
      = ((∑ k : Fin 128, v10 (ix2 b k) * v14 (ix2 k o))
          + (∑ j : Fin 384, ((∑ k : Fin 16384, v0 (ix2 b k) * v3 (ix2 k j)) + v6 (ix1 j)) * v17 (ix2 j o)))
        + v21 (ix1 o) := by
  unfold k1_pay1
  simp only [shapeCast_self]
  rw [addf_apply, addf_apply, product_kurt, product_proj, broadcastTo_1b_ab_apply, shapeCast_a_1a_apply]
  simp only [truncf_apply, addf_apply, product_flat, broadcastTo_1b_ab_apply, shapeCast_a_1a_apply]

variable (m : (ℓ : Loc nD τ sig) → Buf (Elt Ideal) ℓ) (ρ : Dev nD → PrngReg)

/-- The kurtosis array the second launch finds is the first launch's third output. -/
theorem found_kurt (c : Dev nD) : V2 m ρ c main_v0_2 = (dat0 (V0 m ρ) c).arrAt 3 cfg0.N := by
  show StableHlo.after hostOps1 (W1 m ρ c) (Proc.devRef .tc main_v0_2) = _
  after_results
  exact W1_arr m ρ c 3

/-- The flattened matrix array is the first launch's fourth output, re-laid row by row. -/
theorem found_flat (c : Dev nD) :
    V2 m ρ c main_v1 = shapeCast S64x16384 ((dat0 (V0 m ρ) c).arrAt 4 cfg0.N) shapeCasts_S64x128x128_S64x16384 := by
  show StableHlo.after hostOps1 (W1 m ρ c) (Proc.devRef .tc main_v1) = _
  after_results
  have e : W1 m ρ c (Proc.devRef .tc main_v0_3) = (dat0 (V0 m ρ) c).arrAt 4 cfg0.N := W1_arr m ρ c 4
  rw [e]
  rfl

/-- The first weight, transposed. -/
theorem found_wc (c : Dev nD) :
    V2 m ρ c main_v3 = truncf (F := Ideal) .bf16 (transpose S16384x384 [1, 0] (m ((c : Thread nD τ).loc main_arg1)) transposes_S384x16384_S16384x384_1_0) bitsLt_bf16_f32 := by
  show StableHlo.after hostOps1 (W1 m ρ c) (Proc.devRef .tc main_v3) = _
  after_results
  have e : W1 m ρ c (Proc.devRef .tc main_arg1) = m ((c : Thread nD τ).loc main_arg1) := W1_of_ne m ρ c main_arg1 (by decide)
  rw [e]

/-- The first bias. -/
theorem found_bc (c : Dev nD) : V2 m ρ c main_arg2 = m ((c : Thread nD τ).loc main_arg2) := by
  show StableHlo.after hostOps1 (W1 m ρ c) (Proc.devRef .tc main_arg2) = _
  after_results
  exact W1_of_ne m ρ c main_arg2 (by decide)

/-- The first 128 rows of the last weight transposed. -/
theorem found_wf_low (c : Dev nD) :
    V2 m ρ c main_v6 = extractStridedSlice S128x512 ![0, 0]
      (truncf (F := Ideal) .bf16 (transpose S512x512 [1, 0] (m ((c : Thread nD τ).loc main_arg3)) transposes_S512x512_S512x512_1_0) bitsLt_bf16_f32)
      slices_S512x512_S128x512_0_0 := by
  show StableHlo.after hostOps1 (W1 m ρ c) (Proc.devRef .tc main_v6) = _
  after_results
  have e : W1 m ρ c (Proc.devRef .tc main_arg3) = m ((c : Thread nD τ).loc main_arg3) := W1_of_ne m ρ c main_arg3 (by decide)
  rw [e]

/-- The last 384 rows of the last weight transposed. -/
theorem found_wf_high (c : Dev nD) :
    V2 m ρ c main_v7 = extractStridedSlice S384x512 ![128, 0]
      (truncf (F := Ideal) .bf16 (transpose S512x512 [1, 0] (m ((c : Thread nD τ).loc main_arg3)) transposes_S512x512_S512x512_1_0) bitsLt_bf16_f32)
      slices_S512x512_S384x512_128_0 := by
  show StableHlo.after hostOps1 (W1 m ρ c) (Proc.devRef .tc main_v7) = _
  after_results
  have e : W1 m ρ c (Proc.devRef .tc main_arg3) = m ((c : Thread nD τ).loc main_arg3) := W1_of_ne m ρ c main_arg3 (by decide)
  rw [e]

/-- The last bias. -/
theorem found_bf (c : Dev nD) : V2 m ρ c main_arg4 = m ((c : Thread nD τ).loc main_arg4) := by
  show StableHlo.after hostOps1 (W1 m ρ c) (Proc.devRef .tc main_arg4) = _
  after_results
  exact W1_of_ne m ρ c main_arg4 (by decide)

end Cert.KernelIdeal.ProjectValue

end
-- ==== Proof.Spec.lean ====
/-
  Fourth-order pooling, written out index by index over the extended reals.

  Inputs: a batch of 64 sequences of 4096 vectors of 128 features, `x`; a projection `wc` (384 x 16384) with bias `bc`;
  a projection `wf` (512 x 512) with bias `bf`. For every batch `b` and feature `d` take the mean over the sequence, the
  fourth central moment (the "kurtosis" entry), and the centred squares `(x - mean)^2 - their mean`; the 128 x 128
  matrix of products of centred squares summed over the sequence and divided by 4095; that matrix flattened row by row and
  projected by `wc`; the kurtosis row and the projected row laid side by side (128 + 384 = 512 entries) and projected by `wf`.

  Two arrangements of this one computation are stated here, each exactly as one of the two programs performs it:

  * the DIRECT one (`d…`): centre first, then the fourth power and the centred squares by their definitions, every sum over
    the whole sequence at once, the side-by-side row contracted against `wf` in one sum of 512 terms;
  * the ONE-PASS one (`p…`): the four raw power sums `Σx, Σx², Σx³, Σx⁴`, each accumulated over eight stretches of 512
    positions; mean, variance and kurtosis as polynomials in the raw moments
    (`m₄ - 4·m₁·m₃ + 6·m₁²·m₂ - 3·m₁⁴`, `m₂ - m₁²`); the matrix of products again stretch by stretch; the last contraction
    split into its first 128 and its last 384 terms.

  On REAL inputs the two agree (the binomial expansion of `(x - m₁)⁴` and `(x - m₁)²` summed over the sequence, with
  `Σx = 4096·m₁`); with an infinite entry they need not, since the expansion distributes products over sums.
  The literals stay the words the programs carry (4096, 4095, 4, 6, 3 as binary32 patterns).
-/
import Idealize.ShloMosaic.PureOps.Ideal
import Idealize.ShloMosaic.PureOps.Ideal.Laws
import Idealize.ShloMosaic.Lib.ValueIdx

noncomputable section

open scoped BigOperators

namespace Cert.Moments

open Idealize.ShloMosaic Idealize.ShloMosaic.ValueIdx

/-! ## The arrays -/

abbrev ArrX : Type := (⟨3, ![64, 4096, 128]⟩ : Shape).Idx → EReal
abbrev ArrWc : Type := (⟨2, ![384, 16384]⟩ : Shape).Idx → EReal
abbrev ArrBc : Type := (⟨1, ![384]⟩ : Shape).Idx → EReal
abbrev ArrWf : Type := (⟨2, ![512, 512]⟩ : Shape).Idx → EReal
abbrev ArrBf : Type := (⟨1, ![512]⟩ : Shape).Idx → EReal

/-! ## The literals, as the programs spell them -/

/-- 4096, the sequence length. -/
def c4096 : EReal := Ideal.ofBits .f32 0x45800000#32
/-- 4095, the sequence length less one. -/
def c4095 : EReal := Ideal.ofBits .f32 0x457FF000#32
/-- 4, 6 and 3: the binomial coefficients of the fourth central moment in raw moments. -/
def c4 : EReal := Ideal.ofBits .f32 0x40800000#32
def c6 : EReal := Ideal.ofBits .f32 0x40C00000#32
def c3 : EReal := Ideal.ofBits .f32 0x40400000#32

/-! ## Positions -/

/-- Position `j` of stretch `ch` of the sequence: `512·ch + j`. -/
def pos (ch : Fin 8) (j : Fin 512) : Fin 4096 := ⟨512 * ch.val + j.val, by have := ch.isLt; have := j.isLt; omega⟩
/-- Row and column of entry `k` of a 128 x 128 matrix flattened row by row. -/
def rowOf (k : Fin 16384) : Fin 128 := ⟨k.val / 128, by have := k.isLt; omega⟩
def colOf (k : Fin 16384) : Fin 128 := ⟨k.val % 128, by have := k.isLt; omega⟩
/-- Where the kurtosis entries and the projected entries sit in the side-by-side row of 512. -/
def lowK (k : Fin 128) : Fin 512 := ⟨k.val, by have := k.isLt; omega⟩
def highK (j : Fin 384) : Fin 512 := ⟨128 + j.val, by have := j.isLt; omega⟩

/-- Eight stretch totals added up from zero, one after the other. -/
def acc8 (g : Fin 8 → EReal) : EReal := 0 + g 0 + g 1 + g 2 + g 3 + g 4 + g 5 + g 6 + g 7

/-! ## The direct arrangement -/

def dMean (x : ArrX) (b : Fin 64) (d : Fin 128) : EReal :=
  Ideal.div (∑ n : Fin 4096, x (ix3 b n d)) c4096
def dCen (x : ArrX) (b : Fin 64) (n : Fin 4096) (d : Fin 128) : EReal :=
  x (ix3 b n d) - dMean x b d
def dKurt (x : ArrX) (b : Fin 64) (d : Fin 128) : EReal :=
  Ideal.div (∑ n : Fin 4096, (dCen x b n d * dCen x b n d) * (dCen x b n d * dCen x b n d)) c4096
def dSqMean (x : ArrX) (b : Fin 64) (d : Fin 128) : EReal :=
  Ideal.div (∑ n : Fin 4096, dCen x b n d * dCen x b n d) c4096
def dSqc (x : ArrX) (b : Fin 64) (n : Fin 4096) (d : Fin 128) : EReal :=
  dCen x b n d * dCen x b n d - dSqMean x b d
def dCov (x : ArrX) (b : Fin 64) (d e : Fin 128) : EReal :=
  Ideal.div (∑ n : Fin 4096, dSqc x b n d * dSqc x b n e) c4095
def dProj (x : ArrX) (wc : ArrWc) (bc : ArrBc) (b : Fin 64) (j : Fin 384) : EReal :=
  (∑ k : Fin 16384, dCov x b (rowOf k) (colOf k) * wc (ix2 j k)) + bc (ix1 j)
/-- The side-by-side row: 128 kurtosis entries, then 384 projected entries. -/
def dRow (x : ArrX) (wc : ArrWc) (bc : ArrBc) (b : Fin 64) (k : Fin 512) : EReal :=
  if h : k.val < 128 then dKurt x b ⟨k.val, h⟩ else dProj x wc bc b ⟨k.val - 128, by have := k.isLt; omega⟩
def dOut (x : ArrX) (wc : ArrWc) (bc : ArrBc) (wf : ArrWf) (bf : ArrBf) (b : Fin 64) (o : Fin 512) : EReal :=
  (∑ k : Fin 512, dRow x wc bc b k * wf (ix2 o k)) + bf (ix1 o)

/-! ## The one-pass arrangement -/

def pS1 (x : ArrX) (b : Fin 64) (d : Fin 128) : EReal :=
  acc8 fun ch => ∑ j : Fin 512, x (ix3 b (pos ch j) d)
def pS2 (x : ArrX) (b : Fin 64) (d : Fin 128) : EReal :=
  acc8 fun ch => ∑ j : Fin 512, x (ix3 b (pos ch j) d) * x (ix3 b (pos ch j) d)
def pS3 (x : ArrX) (b : Fin 64) (d : Fin 128) : EReal :=
  acc8 fun ch => ∑ j : Fin 512, (x (ix3 b (pos ch j) d) * x (ix3 b (pos ch j) d)) * x (ix3 b (pos ch j) d)
def pS4 (x : ArrX) (b : Fin 64) (d : Fin 128) : EReal :=
  acc8 fun ch => ∑ j : Fin 512,
    (x (ix3 b (pos ch j) d) * x (ix3 b (pos ch j) d)) * (x (ix3 b (pos ch j) d) * x (ix3 b (pos ch j) d))
def pM1 (x : ArrX) (b : Fin 64) (d : Fin 128) : EReal := Ideal.div (pS1 x b d) c4096
def pM2 (x : ArrX) (b : Fin 64) (d : Fin 128) : EReal := Ideal.div (pS2 x b d) c4096
def pM3 (x : ArrX) (b : Fin 64) (d : Fin 128) : EReal := Ideal.div (pS3 x b d) c4096
def pM4 (x : ArrX) (b : Fin 64) (d : Fin 128) : EReal := Ideal.div (pS4 x b d) c4096
def pVar (x : ArrX) (b : Fin 64) (d : Fin 128) : EReal := pM2 x b d - pM1 x b d * pM1 x b d
def pKurt (x : ArrX) (b : Fin 64) (d : Fin 128) : EReal :=
  ((pM4 x b d - (c4 * pM1 x b d) * pM3 x b d) + ((c6 * pM1 x b d) * pM1 x b d) * pM2 x b d)
    - (((c3 * pM1 x b d) * pM1 x b d) * pM1 x b d) * pM1 x b d
def pSqc (x : ArrX) (b : Fin 64) (n : Fin 4096) (d : Fin 128) : EReal :=
  (x (ix3 b n d) - pM1 x b d) * (x (ix3 b n d) - pM1 x b d) - pVar x b d
def pCov (x : ArrX) (b : Fin 64) (d e : Fin 128) : EReal :=
  Ideal.div (acc8 fun ch => ∑ j : Fin 512, pSqc x b (pos ch j) d * pSqc x b (pos ch j) e) c4095
def pProj (x : ArrX) (wc : ArrWc) (bc : ArrBc) (b : Fin 64) (j : Fin 384) : EReal :=
  (∑ k : Fin 16384, pCov x b (rowOf k) (colOf k) * wc (ix2 j k)) + bc (ix1 j)
def pOut (x : ArrX) (wc : ArrWc) (bc : ArrBc) (wf : ArrWf) (bf : ArrBf) (b : Fin 64) (o : Fin 512) : EReal :=
  ((∑ k : Fin 128, pKurt x b k * wf (ix2 o (lowK k)))
      + (∑ j : Fin 384, pProj x wc bc b j * wf (ix2 o (highK j))))
    + bf (ix1 o)

end Cert.Moments

end
-- ==== Proof.StatsPieces.lean ====
import proofs.«112801_j59837484368487_1_alg».proof.Proof.Gen.KernelIdeal.Frame
import Idealize.ShloMosaic.Lib.Pipeline.Value
import Idealize.ShloMosaic.Lib.Tactic

/-!
  The first region's body, read as values at any float instance.

  One grid point works on a block of eight batches, `x0` of shape 8 x 4096 x 128. The body reads it in eight stretches
  of 512 positions. From the stretches it accumulates, starting from the zero block and adding one stretch's lane sum
  after the other, the four raw power sums `Σx, Σx², Σx³, Σx⁴` (`chain8`); the mean and the variance are `Σx/4096` and
  `Σx²/4096 − mean²`; the kurtosis block is a polynomial in the four raw moments. In a second pass over the same
  eight stretches it forms the centred squares `(x − mean)² − variance` (`sqc`), multiplies each stretch's matrix of
  them with itself over the positions (`gram`), adds the eight products up from the zero block and divides by 4095
  (`covChain`).

  This module names those values and shows that what the body's stores leave in the kurtosis buffer and in the matrix
  buffer are exactly these (`out3_eq`, `out4_eq`).
-/

noncomputable section

open Idealize.ShloMosaic Idealize.ShloMosaic.TcCoe Idealize.SL.Sem

namespace Cert.KernelIdeal.StatsPieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- Positions `k … k + 511` of the sequence axis of a block of eight batches. -/
def stretch (x0 : Vec F S8x4096x128 .f32) (k : Nat) (inb : ∀ a, (![0, k, 0] : Fin 3 → Nat) a + S8x512x128.size a ≤ S8x4096x128.size a) :
    Vec F S8x512x128 .f32 :=
  View.ld x0 (Rect.unit (s := S8x4096x128) ![0, k, 0] S8x512x128.size inb)

/-! ## The first pass: four raw power sums, mean, variance, kurtosis -/

/-- The sum over the 512 positions of a stretch, for every batch and feature. -/
def laneSum (w : FVec F S8x512x128 .f32) : FVec F S8x128 .f32 :=
  multiReduction .add [1] S8x128 w 0x00000000#32 reduces_S8x512x128_S8x128 (.inl rfl) rfl

/-- Eight lane sums added up from the zero block, one after the other. -/
def chain8 (w0 w1 w2 w3 w4 w5 w6 w7 : FVec F S8x512x128 .f32) : FVec F S8x128 .f32 :=
  addf (addf (addf (addf (addf (addf (addf (addf (broadcast S8x128 (Scalar.ofBits .f32 0x00000000#32)) (laneSum w0)) (laneSum w1))
    (laneSum w2)) (laneSum w3)) (laneSum w4)) (laneSum w5)) (laneSum w6)) (laneSum w7)

/-- Square, cube and fourth power of a stretch, associated as the body multiplies them. -/
def pw2 (v : Vec F S8x512x128 .f32) : FVec F S8x512x128 .f32 := mulf v v
def pw3 (v : Vec F S8x512x128 .f32) : FVec F S8x512x128 .f32 := mulf (mulf v v) v
def pw4 (v : Vec F S8x512x128 .f32) : FVec F S8x512x128 .f32 := mulf (mulf v v) (mulf v v)

def sum1 (v0 v1 v2 v3 v4 v5 v6 v7 : Vec F S8x512x128 .f32) : FVec F S8x128 .f32 := chain8 v0 v1 v2 v3 v4 v5 v6 v7
def sum2 (v0 v1 v2 v3 v4 v5 v6 v7 : Vec F S8x512x128 .f32) : FVec F S8x128 .f32 := chain8 (pw2 v0) (pw2 v1) (pw2 v2) (pw2 v3) (pw2 v4) (pw2 v5) (pw2 v6) (pw2 v7)
def sum3 (v0 v1 v2 v3 v4 v5 v6 v7 : Vec F S8x512x128 .f32) : FVec F S8x128 .f32 := chain8 (pw3 v0) (pw3 v1) (pw3 v2) (pw3 v3) (pw3 v4) (pw3 v5) (pw3 v6) (pw3 v7)
def sum4 (v0 v1 v2 v3 v4 v5 v6 v7 : Vec F S8x512x128 .f32) : FVec F S8x128 .f32 := chain8 (pw4 v0) (pw4 v1) (pw4 v2) (pw4 v3) (pw4 v4) (pw4 v5) (pw4 v6) (pw4 v7)

/-- The body's accumulation of each power sum, payload by payload, is that chain. -/
theorem sum1_eq (v0 v1 v2 v3 v4 v5 v6 v7 : Vec F S8x512x128 .f32) : k0_pay20 (k0_pay13 (k0_pay10 v0 v1 v2) v3 v4) v5 v6 v7 = sum1 v0 v1 v2 v3 v4 v5 v6 v7 := rfl
theorem sum2_eq (v0 v1 v2 v3 v4 v5 v6 v7 : Vec F S8x512x128 .f32) : k0_pay21 (k0_pay14 (k0_pay4 v0 v1) (k0_pay7 v2) v3 v4) v5 v6 v7 = sum2 v0 v1 v2 v3 v4 v5 v6 v7 := rfl
theorem sum3_eq (v0 v1 v2 v3 v4 v5 v6 v7 : Vec F S8x512x128 .f32) : k0_pay22 (k0_pay15 (k0_pay5 v0 v1) (k0_pay8 v2) v3 v4) v5 v6 v7 = sum3 v0 v1 v2 v3 v4 v5 v6 v7 := rfl
theorem sum4_eq (v0 v1 v2 v3 v4 v5 v6 v7 : Vec F S8x512x128 .f32) : k0_pay23 (k0_pay16 (k0_pay6 v0 v1) (k0_pay9 v2) v3 v4) v5 v6 v7 = sum4 v0 v1 v2 v3 v4 v5 v6 v7 := rfl

/-- Mean and variance of a block from its first two power sums. -/
def meanV (s1 : FVec F S8x128 .f32) : FVec F S8x128 .f32 := k0_pay24 s1
def varV (s1 s2 : FVec F S8x128 .f32) : FVec F S8x128 .f32 := k0_pay26 s1 s2

/-- The kurtosis block: the polynomial in the four raw moments. -/
def kurtBlock (v0 v1 v2 v3 v4 v5 v6 v7 : Vec F S8x512x128 .f32) : FVec F S8x128 .f32 :=
  k0_pay27 (sum1 v0 v1 v2 v3 v4 v5 v6 v7) (sum2 v0 v1 v2 v3 v4 v5 v6 v7) (sum3 v0 v1 v2 v3 v4 v5 v6 v7) (sum4 v0 v1 v2 v3 v4 v5 v6 v7)

/-! ## The second pass: centred squares and their products -/

/-- A per-batch, per-feature value repeated along the 512 positions of a stretch. -/
def lift3 (m : FVec F S8x128 .f32) : FVec F S8x512x128 .f32 :=
  broadcastTo S8x512x128 (shapeCast S8x1x128 m shapeCasts_S8x128_S8x1x128) broadcasts_S8x1x128_S8x512x128

/-- The centred squares of a stretch: `(x − mean)² − variance`. -/
def sqc (m va : FVec F S8x128 .f32) (v : Vec F S8x512x128 .f32) : FVec F S8x512x128 .f32 :=
  subf (mulf (subf v (lift3 m)) (subf v (lift3 m))) (lift3 va)

/-- For every batch the 128 x 128 matrix of products of a stretch with itself, summed over the positions. -/
def gram (t : FVec F S8x512x128 .f32) : FVec F S8x128x128 .f32 :=
  matmul dot_S8x512x128_S8x512x128_S8x128x128_1_1_2_2_0_0 none (truncf .bf16 t bitsLt_bf16_f32) (truncf .bf16 t bitsLt_bf16_f32)
    (constant S8x128x128 .f32 0x00000000#32)

/-- The eight stretches' product matrices added up from the zero block, divided by 4095. -/
def covChain (m va : FVec F S8x128 .f32) (v0 v1 v2 v3 v4 v5 v6 v7 : Vec F S8x512x128 .f32) : FVec F S8x128x128 .f32 :=
  divf (addf (addf (addf (addf (addf (addf (addf (addf (broadcast S8x128x128 (Scalar.ofBits .f32 0x00000000#32))
    (gram (sqc m va v0))) (gram (sqc m va v1))) (gram (sqc m va v2))) (gram (sqc m va v3))) (gram (sqc m va v4)))
    (gram (sqc m va v5))) (gram (sqc m va v6))) (gram (sqc m va v7)))
    (broadcast S8x128x128 (Scalar.ofBits .f32 0x457FF000#32))

/-- The matrix block of a block of eight batches. -/
def covBlock (v0 v1 v2 v3 v4 v5 v6 v7 : Vec F S8x512x128 .f32) : FVec F S8x128x128 .f32 :=
  covChain (meanV (sum1 v0 v1 v2 v3 v4 v5 v6 v7)) (varV (sum1 v0 v1 v2 v3 v4 v5 v6 v7) (sum2 v0 v1 v2 v3 v4 v5 v6 v7)) v0 v1 v2 v3 v4 v5 v6 v7

/-- The body's second pass, payload by payload, is that chain. -/
theorem cov_eq (s1 s2 : FVec F S8x128 .f32) (v0 v1 v2 v3 v4 v5 v6 v7 : Vec F S8x512x128 .f32) :
    k0_pay34 (k0_pay28 s1) (k0_pay29 s1 s2)
      (k0_pay32 (k0_pay28 s1) (k0_pay29 s1 s2) (k0_pay30 (F := F)) (k0_pay31 s1 s2 v0) v1 v2 v3)
      v4 (k0_pay33 (k0_pay28 s1)) v5 v6 v7
      = covChain (meanV s1) (varV s1 s2) v0 v1 v2 v3 v4 v5 v6 v7 := rfl

/-! ## What the body leaves in the two buffers -/

/-- The kurtosis buffer ends holding the kurtosis block of the eight stretches of the input block. -/
theorem out3_eq (c : Dev nD) (i : grid0.Coords) (arg1 : Memref sig .tc .vmem S8x4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole)
    (x0 : Vec F S8x4096x128 .f32) :
    out0_A_3 c i arg1 harg1 arg2 harg2 arg3 harg3 arg4 harg4 arg5 harg5 x0
      = kurtBlock (stretch x0 0 (by decide)) (stretch x0 512 (by decide)) (stretch x0 1024 (by decide)) (stretch x0 1536 (by decide))
          (stretch x0 2048 (by decide)) (stretch x0 2560 (by decide)) (stretch x0 3072 (by decide)) (stretch x0 3584 (by decide)) := by
  unfold out0_A_3
  rw [View.read_writes_eq_canon _ _ _ (cover0_A_3 c i arg1 harg1 arg2 harg2 arg3 harg3 arg4 harg4 arg5 harg5 x0)]
  unfold kernelRun0_A
  dsimp only
  sl_unfold_words
  rw [View.canon_unit_zero zero2]
  simp only [View.readAt_eq_ld, harg1.read_unread]
  rfl

/-- The matrix buffer ends holding the matrix block of the eight stretches of the input block. -/
theorem out4_eq (c : Dev nD) (i : grid0.Coords) (arg1 : Memref sig .tc .vmem S8x4096x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (arg5 : Memref sig .tc .vmem S8x128x128 .f32) (harg5 : arg5.IsWhole)
    (x0 : Vec F S8x4096x128 .f32) :
    out0_A_4 c i arg1 harg1 arg2 harg2 arg3 harg3 arg4 harg4 arg5 harg5 x0
      = covBlock (stretch x0 0 (by decide)) (stretch x0 512 (by decide)) (stretch x0 1024 (by decide)) (stretch x0 1536 (by decide))
          (stretch x0 2048 (by decide)) (stretch x0 2560 (by decide)) (stretch x0 3072 (by decide)) (stretch x0 3584 (by decide)) := by
  unfold out0_A_4
  rw [View.read_writes_eq_canon _ _ _ (cover0_A_4 c i arg1 harg1 arg2 harg2 arg3 harg3 arg4 harg4 arg5 harg5 x0)]
  unfold kernelRun0_A
  dsimp only
  sl_unfold_words
  rw [View.canon_unit_zero zero3]
  simp only [View.readAt_eq_ld, harg1.read_unread]
  rfl

end Cert.KernelIdeal.StatsPieces

end
-- ==== Proof.StatsReads.lean ====
import proofs.«112801_j59837484368487_1_alg».proof.Proof.StatsPieces
import proofs.«112801_j59837484368487_1_alg».proof.Proof.Spec
import Idealize.ShloMosaic.PureOps.Ideal.Laws
import Idealize.ShloMosaic.Lib.ValueIdx
import Idealize.ShloMosaic.Lib.Pipeline.Value

/-!
  The body's operations read at one index, over the extended reals.

  A stretch's entry `(b, j, d)` is the block's entry at position `512·ch + j`; a lane sum at `(b, d)` is the sum over
  the 512 positions; a value repeated along the positions reads the same at every position; a stretch's product
  matrix at `(b, d, e)` is the sum over the positions of the products of the entries at `d` and at `e`. With these the
  two chains of eight terms are read as `0 + t₀ + … + t₇`.
-/

noncomputable section

open scoped BigOperators

open Idealize.ShloMosaic Idealize.ShloMosaic.TcCoe Idealize.SL.Sem Idealize.ShloMosaic.ValueIdx

namespace Cert.KernelIdeal.StatsReads

open Cert.KernelIdeal Cert.KernelIdeal.Gen Cert.KernelIdeal.StatsPieces Cert.Moments

/-- Position `j` of the stretch that starts at `512·ch` is position `512·ch + j` of the block. -/
theorem stretch_apply (x0 : Vec Ideal S8x4096x128 .f32) (ch : Fin 8) (k : Nat) (hk : k = 512 * ch.val)
    (inb : ∀ a, (![0, k, 0] : Fin 3 → Nat) a + S8x512x128.size a ≤ S8x4096x128.size a) (bb : Fin 8) (j : Fin 512) (d : Fin 128) :
    stretch x0 k inb (ix3 bb j d) = x0 (ix3 bb (pos ch j) d) := by
  subst hk
  unfold stretch
  show x0 _ = x0 _
  refine congrArg x0 (funext fun a => Fin.ext ?_)
  match a with
  | ⟨0, _⟩ => show 0 + 1 * bb.val = bb.val; omega
  | ⟨1, _⟩ => show 512 * ch.val + 1 * j.val = 512 * ch.val + j.val; omega
  | ⟨2, _⟩ => show 0 + 1 * d.val = d.val; omega

/-- A lane sum at `(b, d)` is the sum over the stretch's 512 positions. -/
theorem laneSum_apply (w : FVec Ideal S8x512x128 .f32) (bb : Fin 8) (d : Fin 128) :
    laneSum w (ix2 bb d) = ∑ j : Fin 512, w (ix3 bb j d) := by
  unfold laneSum
  refine (Ideal.multiReduction_add_single w 0x00000000#32 reduces_S8x512x128_S8x128 (.inl rfl) rfl (ix2 bb d)).trans ?_
  exact Finset.sum_congr rfl fun k _ => congrArg w (funext fun a => Fin.ext (by
    match a with
    | ⟨0, _⟩ => rfl
    | ⟨1, _⟩ => rfl
    | ⟨2, _⟩ => rfl))

/-- Eight lane sums added up from the zero block, at `(b, d)`. -/
theorem chain8_apply (w0 w1 w2 w3 w4 w5 w6 w7 : FVec Ideal S8x512x128 .f32) (bb : Fin 8) (d : Fin 128) :
    chain8 w0 w1 w2 w3 w4 w5 w6 w7 (ix2 bb d)
      = 0 + (∑ j : Fin 512, w0 (ix3 bb j d)) + (∑ j : Fin 512, w1 (ix3 bb j d)) + (∑ j : Fin 512, w2 (ix3 bb j d))
          + (∑ j : Fin 512, w3 (ix3 bb j d)) + (∑ j : Fin 512, w4 (ix3 bb j d)) + (∑ j : Fin 512, w5 (ix3 bb j d))
          + (∑ j : Fin 512, w6 (ix3 bb j d)) + (∑ j : Fin 512, w7 (ix3 bb j d)) := by
  unfold chain8
  show Ideal.ofBits .f32 0x00000000#32 + laneSum w0 (ix2 bb d) + laneSum w1 (ix2 bb d) + laneSum w2 (ix2 bb d) + laneSum w3 (ix2 bb d)
      + laneSum w4 (ix2 bb d) + laneSum w5 (ix2 bb d) + laneSum w6 (ix2 bb d) + laneSum w7 (ix2 bb d) = _
  rw [Ideal.ofBits_zero_f32, laneSum_apply w0, laneSum_apply w1, laneSum_apply w2, laneSum_apply w3, laneSum_apply w4,
    laneSum_apply w5, laneSum_apply w6, laneSum_apply w7]

/-- A value repeated along the positions reads the same at every position. -/
theorem lift3_apply (m : FVec Ideal S8x128 .f32) (bb : Fin 8) (n : Fin 512) (d : Fin 128) :
    lift3 m (ix3 bb n d) = m (ix2 bb d) := by
  unfold lift3
  refine (broadcastTo_apply _ broadcasts_S8x1x128_S8x512x128 (ix3 bb n d) (ix3 bb (0 : Fin 1) d) (fun a => ?_)).trans ?_
  · match a with
    | ⟨0, _⟩ => show bb.val = if (8 : Nat) = 1 then 0 else bb.val; rw [if_neg (by decide)]
    | ⟨1, _⟩ => show 0 = if (1 : Nat) = 1 then 0 else n.val; rw [if_pos rfl]
    | ⟨2, _⟩ => show d.val = if (128 : Nat) = 1 then 0 else d.val; rw [if_neg (by decide)]
  · refine shapeCast_apply m shapeCasts_S8x128_S8x1x128 (ix3 bb (0 : Fin 1) d) (ix2 bb d) ?_
    rw [Shape.rowMajor_val_two, Shape.rowMajor_val_three]
    show bb.val * 128 + d.val = (bb.val * 1 + 0) * 128 + d.val
    omega

/-- The centred squares at `(b, n, d)`. -/
theorem sqc_apply (m va : FVec Ideal S8x128 .f32) (v : Vec Ideal S8x512x128 .f32) (bb : Fin 8) (n : Fin 512) (d : Fin 128) :
    sqc m va v (ix3 bb n d) = (v (ix3 bb n d) - m (ix2 bb d)) * (v (ix3 bb n d) - m (ix2 bb d)) - va (ix2 bb d) := by
  unfold sqc
  show (v (ix3 bb n d) - lift3 m (ix3 bb n d)) * (v (ix3 bb n d) - lift3 m (ix3 bb n d)) - lift3 va (ix3 bb n d) = _
  rw [lift3_apply m, lift3_apply va]

/-! ### The product matrix -/

theorem lhs_0 (i : S8x128x128.Idx) (q : dot_S8x512x128_S8x512x128_S8x128x128_1_1_2_2_0_0.contr.Idx) : (dot_S8x512x128_S8x512x128_S8x128x128_1_1_2_2_0_0.lhsIdx i q 0).val = (i 0).val := by
  unfold DotDims.lhsIdx
  rw [dif_pos (show (0 : Fin S8x512x128.rank) ∈ dot_S8x512x128_S8x512x128_S8x128x128_1_1_2_2_0_0.lhsBatch by decide)]
  rfl
theorem lhs_1 (i : S8x128x128.Idx) (q : dot_S8x512x128_S8x512x128_S8x128x128_1_1_2_2_0_0.contr.Idx) : (dot_S8x512x128_S8x512x128_S8x128x128_1_1_2_2_0_0.lhsIdx i q 1).val = (q ⟨0, by decide⟩).val :=
  dot_S8x512x128_S8x512x128_S8x128x128_1_1_2_2_0_0.lhsIdx_val_of_single rfl i q
theorem lhs_2 (i : S8x128x128.Idx) (q : dot_S8x512x128_S8x512x128_S8x128x128_1_1_2_2_0_0.contr.Idx) : (dot_S8x512x128_S8x512x128_S8x128x128_1_1_2_2_0_0.lhsIdx i q 2).val = (i 1).val := by
  unfold DotDims.lhsIdx
  rw [dif_neg (show ¬(2 : Fin S8x512x128.rank) ∈ dot_S8x512x128_S8x512x128_S8x128x128_1_1_2_2_0_0.lhsBatch by decide), dif_pos (show (2 : Fin S8x512x128.rank) ∈ dot_S8x512x128_S8x512x128_S8x128x128_1_1_2_2_0_0.lhsNonContracting by decide)]
  rfl
theorem rhs_0 (i : S8x128x128.Idx) (q : dot_S8x512x128_S8x512x128_S8x128x128_1_1_2_2_0_0.contr.Idx) : (dot_S8x512x128_S8x512x128_S8x128x128_1_1_2_2_0_0.rhsIdx i q 0).val = (i 0).val := by
  unfold DotDims.rhsIdx
  rw [dif_pos (show (0 : Fin S8x512x128.rank) ∈ dot_S8x512x128_S8x512x128_S8x128x128_1_1_2_2_0_0.rhsBatch by decide)]
  rfl
theorem rhs_1 (i : S8x128x128.Idx) (q : dot_S8x512x128_S8x512x128_S8x128x128_1_1_2_2_0_0.contr.Idx) : (dot_S8x512x128_S8x512x128_S8x128x128_1_1_2_2_0_0.rhsIdx i q 1).val = (q ⟨0, by decide⟩).val :=
  dot_S8x512x128_S8x512x128_S8x128x128_1_1_2_2_0_0.rhsIdx_val_of_single rfl i q
theorem rhs_2 (i : S8x128x128.Idx) (q : dot_S8x512x128_S8x512x128_S8x128x128_1_1_2_2_0_0.contr.Idx) : (dot_S8x512x128_S8x512x128_S8x128x128_1_1_2_2_0_0.rhsIdx i q 2).val = (i 2).val := by
  unfold DotDims.rhsIdx
  rw [dif_neg (show ¬(2 : Fin S8x512x128.rank) ∈ dot_S8x512x128_S8x512x128_S8x128x128_1_1_2_2_0_0.rhsBatch by decide), dif_pos (show (2 : Fin S8x512x128.rank) ∈ dot_S8x512x128_S8x512x128_S8x128x128_1_1_2_2_0_0.rhsNonContracting by decide)]
  rfl

/-- A stretch's product matrix at `(b, d, e)`: the sum over the positions of the products of the entries at `d` and `e`. -/
theorem gram_apply (t : FVec Ideal S8x512x128 .f32) (bb : Fin 8) (d e : Fin 128) :
    gram t (ix3 bb d e) = ∑ n : Fin 512, t (ix3 bb n d) * t (ix3 bb n e) := by
  unfold gram
  simp only [matmul]
  rw [Ideal.matmul_constant_zero_apply, ← Equiv.sum_comp (contrEquiv1 dot_S8x512x128_S8x512x128_S8x128x128_1_1_2_2_0_0 512 rfl rfl).symm]
  refine Finset.sum_congr rfl fun k _ => ?_
  have hk := contrEquiv1_symm_val dot_S8x512x128_S8x512x128_S8x128x128_1_1_2_2_0_0 512 rfl rfl k
  have el : dot_S8x512x128_S8x512x128_S8x128x128_1_1_2_2_0_0.lhsIdx (ix3 bb d e) ((contrEquiv1 dot_S8x512x128_S8x512x128_S8x128x128_1_1_2_2_0_0 512 rfl rfl).symm k) = ix3 bb k d := funext fun a => Fin.ext (by
    match a with
    | ⟨0, _⟩ => exact lhs_0 _ _
    | ⟨1, _⟩ => exact (lhs_1 _ _).trans hk
    | ⟨2, _⟩ => exact lhs_2 _ _)
  have er : dot_S8x512x128_S8x512x128_S8x128x128_1_1_2_2_0_0.rhsIdx (ix3 bb d e) ((contrEquiv1 dot_S8x512x128_S8x512x128_S8x128x128_1_1_2_2_0_0 512 rfl rfl).symm k) = ix3 bb k e := funext fun a => Fin.ext (by
    match a with
    | ⟨0, _⟩ => exact rhs_0 _ _
    | ⟨1, _⟩ => exact (rhs_1 _ _).trans hk
    | ⟨2, _⟩ => exact rhs_2 _ _)
  rw [el, er]
  rfl

/-- The eight product matrices added up from the zero block and divided by 4095, at `(b, d, e)`. -/
theorem covChain_apply (m va : FVec Ideal S8x128 .f32) (v0 v1 v2 v3 v4 v5 v6 v7 : Vec Ideal S8x512x128 .f32) (bb : Fin 8) (d e : Fin 128) :
    covChain m va v0 v1 v2 v3 v4 v5 v6 v7 (ix3 bb d e)
      = Ideal.div (0 + (∑ n : Fin 512, sqc m va v0 (ix3 bb n d) * sqc m va v0 (ix3 bb n e))
          + (∑ n : Fin 512, sqc m va v1 (ix3 bb n d) * sqc m va v1 (ix3 bb n e))
          + (∑ n : Fin 512, sqc m va v2 (ix3 bb n d) * sqc m va v2 (ix3 bb n e))
          + (∑ n : Fin 512, sqc m va v3 (ix3 bb n d) * sqc m va v3 (ix3 bb n e))
          + (∑ n : Fin 512, sqc m va v4 (ix3 bb n d) * sqc m va v4 (ix3 bb n e))
          + (∑ n : Fin 512, sqc m va v5 (ix3 bb n d) * sqc m va v5 (ix3 bb n e))
          + (∑ n : Fin 512, sqc m va v6 (ix3 bb n d) * sqc m va v6 (ix3 bb n e))
          + (∑ n : Fin 512, sqc m va v7 (ix3 bb n d) * sqc m va v7 (ix3 bb n e))) c4095 := by
  unfold covChain
  show Ideal.div (Ideal.ofBits .f32 0x00000000#32 + gram (sqc m va v0) (ix3 bb d e) + gram (sqc m va v1) (ix3 bb d e)
      + gram (sqc m va v2) (ix3 bb d e) + gram (sqc m va v3) (ix3 bb d e) + gram (sqc m va v4) (ix3 bb d e)
      + gram (sqc m va v5) (ix3 bb d e) + gram (sqc m va v6) (ix3 bb d e) + gram (sqc m va v7) (ix3 bb d e))
      (Ideal.ofBits .f32 0x457FF000#32) = _
  rw [Ideal.ofBits_zero_f32, gram_apply (sqc m va v0), gram_apply (sqc m va v1), gram_apply (sqc m va v2), gram_apply (sqc m va v3),
    gram_apply (sqc m va v4), gram_apply (sqc m va v5), gram_apply (sqc m va v6), gram_apply (sqc m va v7)]
  rfl

end Cert.KernelIdeal.StatsReads

end
-- ==== Proof.StatsMoments.lean ====
import proofs.«112801_j59837484368487_1_alg».proof.Proof.StatsReads

/-!
  One block of eight batches against the one-pass arrangement.

  If row `(bb, ·, d)` of a block is row `(b, ·, d)` of the whole array, then each of the block's four power sums at
  `(bb, d)` is the array's at `(b, d)`: both are `0 + t₀ + … + t₇` with `tₖ` the sum over stretch `k` of the same
  entries. Mean, variance and the kurtosis polynomial follow entry by entry, and so does the matrix of products of
  centred squares, whose entry `(d, e)` needs rows `d` and `e`.
-/

noncomputable section

open scoped BigOperators

open Idealize.ShloMosaic Idealize.ShloMosaic.TcCoe Idealize.SL.Sem Idealize.ShloMosaic.ValueIdx

namespace Cert.KernelIdeal.StatsMoments

open Cert.KernelIdeal Cert.KernelIdeal.Gen Cert.KernelIdeal.StatsPieces Cert.KernelIdeal.StatsReads Cert.Moments

variable (x0 : Vec Ideal S8x4096x128 .f32) (X : ArrX) (bb : Fin 8) (b : Fin 64)

/-! ## The power sums -/

/-- One stretch's total of a pointwise function of the entries, through the block and through the array. -/
theorem stretchSum (d : Fin 128) (hx : ∀ n, x0 (ix3 bb n d) = X (ix3 b n d))
    (p : Vec Ideal S8x512x128 .f32 → FVec Ideal S8x512x128 .f32) (f : EReal → EReal) (hp : ∀ v i, p v i = f (v i))
    (ch : Fin 8) (k : Nat) (hk : k = 512 * ch.val)
    (inb : ∀ a, (![0, k, 0] : Fin 3 → Nat) a + S8x512x128.size a ≤ S8x4096x128.size a) :
    ∑ j : Fin 512, p (stretch x0 k inb) (ix3 bb j d) = ∑ j : Fin 512, f (X (ix3 b (pos ch j) d)) :=
  Finset.sum_congr rfl fun j _ => by rw [hp, stretch_apply x0 ch k hk inb bb j d, hx]

/-- The chain of eight stretch totals of a pointwise function, through the block and through the array. -/
theorem powerSum_apply (d : Fin 128) (hx : ∀ n, x0 (ix3 bb n d) = X (ix3 b n d))
    (p : Vec Ideal S8x512x128 .f32 → FVec Ideal S8x512x128 .f32) (f : EReal → EReal) (hp : ∀ v i, p v i = f (v i)) :
    chain8 (p (stretch x0 0 (by decide))) (p (stretch x0 512 (by decide))) (p (stretch x0 1024 (by decide))) (p (stretch x0 1536 (by decide))) (p (stretch x0 2048 (by decide))) (p (stretch x0 2560 (by decide))) (p (stretch x0 3072 (by decide))) (p (stretch x0 3584 (by decide))) (ix2 bb d)
      = acc8 fun ch => ∑ j : Fin 512, f (X (ix3 b (pos ch j) d)) := by
  rw [chain8_apply, stretchSum x0 X bb b d hx p f hp 0 0 (by decide),
    stretchSum x0 X bb b d hx p f hp 1 512 (by decide),
    stretchSum x0 X bb b d hx p f hp 2 1024 (by decide),
    stretchSum x0 X bb b d hx p f hp 3 1536 (by decide),
    stretchSum x0 X bb b d hx p f hp 4 2048 (by decide),
    stretchSum x0 X bb b d hx p f hp 5 2560 (by decide),
    stretchSum x0 X bb b d hx p f hp 6 3072 (by decide),
    stretchSum x0 X bb b d hx p f hp 7 3584 (by decide)]
  rfl

theorem sum1_apply (d : Fin 128) (hx : ∀ n, x0 (ix3 bb n d) = X (ix3 b n d)) :
    sum1 (stretch x0 0 (by decide)) (stretch x0 512 (by decide)) (stretch x0 1024 (by decide)) (stretch x0 1536 (by decide)) (stretch x0 2048 (by decide)) (stretch x0 2560 (by decide)) (stretch x0 3072 (by decide)) (stretch x0 3584 (by decide)) (ix2 bb d) = pS1 X b d :=
  powerSum_apply x0 X bb b d hx (fun v => v) (fun x => x) (fun _ _ => rfl)
theorem sum2_apply (d : Fin 128) (hx : ∀ n, x0 (ix3 bb n d) = X (ix3 b n d)) :
    sum2 (stretch x0 0 (by decide)) (stretch x0 512 (by decide)) (stretch x0 1024 (by decide)) (stretch x0 1536 (by decide)) (stretch x0 2048 (by decide)) (stretch x0 2560 (by decide)) (stretch x0 3072 (by decide)) (stretch x0 3584 (by decide)) (ix2 bb d) = pS2 X b d :=
  powerSum_apply x0 X bb b d hx pw2 (fun x => x * x) (fun _ _ => rfl)
theorem sum3_apply (d : Fin 128) (hx : ∀ n, x0 (ix3 bb n d) = X (ix3 b n d)) :
    sum3 (stretch x0 0 (by decide)) (stretch x0 512 (by decide)) (stretch x0 1024 (by decide)) (stretch x0 1536 (by decide)) (stretch x0 2048 (by decide)) (stretch x0 2560 (by decide)) (stretch x0 3072 (by decide)) (stretch x0 3584 (by decide)) (ix2 bb d) = pS3 X b d :=
  powerSum_apply x0 X bb b d hx pw3 (fun x => (x * x) * x) (fun _ _ => rfl)
theorem sum4_apply (d : Fin 128) (hx : ∀ n, x0 (ix3 bb n d) = X (ix3 b n d)) :
    sum4 (stretch x0 0 (by decide)) (stretch x0 512 (by decide)) (stretch x0 1024 (by decide)) (stretch x0 1536 (by decide)) (stretch x0 2048 (by decide)) (stretch x0 2560 (by decide)) (stretch x0 3072 (by decide)) (stretch x0 3584 (by decide)) (ix2 bb d) = pS4 X b d :=
  powerSum_apply x0 X bb b d hx pw4 (fun x => (x * x) * (x * x)) (fun _ _ => rfl)

/-! ## Mean, variance, kurtosis -/

/-- The kurtosis polynomial in the four power sums at one entry. -/
def kurtPoly (s1 s2 s3 s4 : EReal) : EReal :=
  ((Ideal.div s4 c4096 - (c4 * Ideal.div s1 c4096) * Ideal.div s3 c4096)
      + ((c6 * Ideal.div s1 c4096) * Ideal.div s1 c4096) * Ideal.div s2 c4096)
    - (((c3 * Ideal.div s1 c4096) * Ideal.div s1 c4096) * Ideal.div s1 c4096) * Ideal.div s1 c4096

theorem kurtPoly_apply (s1 s2 s3 s4 : FVec Ideal S8x128 .f32) (i : S8x128.Idx) :
    k0_pay27 s1 s2 s3 s4 i = kurtPoly (s1 i) (s2 i) (s3 i) (s4 i) := rfl
theorem meanV_apply (s1 : FVec Ideal S8x128 .f32) (i : S8x128.Idx) : meanV s1 i = Ideal.div (s1 i) c4096 := rfl
theorem varV_apply (s1 s2 : FVec Ideal S8x128 .f32) (i : S8x128.Idx) :
    varV s1 s2 i = Ideal.div (s2 i) c4096 - Ideal.div (s1 i) c4096 * Ideal.div (s1 i) c4096 := rfl

/-- The block's kurtosis entry is the array's. -/
theorem kurtBlock_apply (d : Fin 128) (hx : ∀ n, x0 (ix3 bb n d) = X (ix3 b n d)) :
    kurtBlock (stretch x0 0 (by decide)) (stretch x0 512 (by decide)) (stretch x0 1024 (by decide)) (stretch x0 1536 (by decide)) (stretch x0 2048 (by decide)) (stretch x0 2560 (by decide)) (stretch x0 3072 (by decide)) (stretch x0 3584 (by decide)) (ix2 bb d) = pKurt X b d := by
  unfold kurtBlock
  rw [kurtPoly_apply, sum1_apply x0 X bb b d hx, sum2_apply x0 X bb b d hx, sum3_apply x0 X bb b d hx, sum4_apply x0 X bb b d hx]
  rfl

/-- The block's mean entry is the array's. -/
theorem mean_block (d : Fin 128) (hx : ∀ n, x0 (ix3 bb n d) = X (ix3 b n d)) :
    meanV (sum1 (stretch x0 0 (by decide)) (stretch x0 512 (by decide)) (stretch x0 1024 (by decide)) (stretch x0 1536 (by decide)) (stretch x0 2048 (by decide)) (stretch x0 2560 (by decide)) (stretch x0 3072 (by decide)) (stretch x0 3584 (by decide))) (ix2 bb d) = pM1 X b d := by
  rw [meanV_apply, sum1_apply x0 X bb b d hx]
  rfl

/-- The block's variance entry is the array's. -/
theorem var_block (d : Fin 128) (hx : ∀ n, x0 (ix3 bb n d) = X (ix3 b n d)) :
    varV (sum1 (stretch x0 0 (by decide)) (stretch x0 512 (by decide)) (stretch x0 1024 (by decide)) (stretch x0 1536 (by decide)) (stretch x0 2048 (by decide)) (stretch x0 2560 (by decide)) (stretch x0 3072 (by decide)) (stretch x0 3584 (by decide))) (sum2 (stretch x0 0 (by decide)) (stretch x0 512 (by decide)) (stretch x0 1024 (by decide)) (stretch x0 1536 (by decide)) (stretch x0 2048 (by decide)) (stretch x0 2560 (by decide)) (stretch x0 3072 (by decide)) (stretch x0 3584 (by decide))) (ix2 bb d) = pVar X b d := by
  rw [varV_apply, sum1_apply x0 X bb b d hx, sum2_apply x0 X bb b d hx]
  rfl

/-! ## The matrix of products of centred squares -/

/-- One stretch's total of the products of centred squares at features `d` and `e`, through the block and through the array. -/
theorem gramSum (m va : FVec Ideal S8x128 .f32) (d e : Fin 128)
    (hxd : ∀ n, x0 (ix3 bb n d) = X (ix3 b n d)) (hxe : ∀ n, x0 (ix3 bb n e) = X (ix3 b n e))
    (hmd : m (ix2 bb d) = pM1 X b d) (hme : m (ix2 bb e) = pM1 X b e)
    (hvd : va (ix2 bb d) = pVar X b d) (hve : va (ix2 bb e) = pVar X b e)
    (ch : Fin 8) (k : Nat) (hk : k = 512 * ch.val)
    (inb : ∀ a, (![0, k, 0] : Fin 3 → Nat) a + S8x512x128.size a ≤ S8x4096x128.size a) :
    ∑ n : Fin 512, sqc m va (stretch x0 k inb) (ix3 bb n d) * sqc m va (stretch x0 k inb) (ix3 bb n e)
      = ∑ j : Fin 512, pSqc X b (pos ch j) d * pSqc X b (pos ch j) e :=
  Finset.sum_congr rfl fun j _ => by
    rw [sqc_apply, sqc_apply, stretch_apply x0 ch k hk inb bb j d, stretch_apply x0 ch k hk inb bb j e, hxd, hxe, hmd, hme, hvd, hve]
    rfl

/-- The block's matrix entry is the array's. -/
theorem covBlock_apply (d e : Fin 128) (hx : ∀ n (d' : Fin 128), x0 (ix3 bb n d') = X (ix3 b n d')) :
    covBlock (stretch x0 0 (by decide)) (stretch x0 512 (by decide)) (stretch x0 1024 (by decide)) (stretch x0 1536 (by decide)) (stretch x0 2048 (by decide)) (stretch x0 2560 (by decide)) (stretch x0 3072 (by decide)) (stretch x0 3584 (by decide)) (ix3 bb d e) = pCov X b d e := by
  have hxd : ∀ n, x0 (ix3 bb n d) = X (ix3 b n d) := fun n => hx n d
  have hxe : ∀ n, x0 (ix3 bb n e) = X (ix3 b n e) := fun n => hx n e
  have hmd := mean_block x0 X bb b d hxd
  have hme := mean_block x0 X bb b e hxe
  have hvd := var_block x0 X bb b d hxd
  have hve := var_block x0 X bb b e hxe
  unfold covBlock
  rw [covChain_apply, gramSum x0 X bb b _ _ d e hxd hxe hmd hme hvd hve 0 0 (by decide),
    gramSum x0 X bb b _ _ d e hxd hxe hmd hme hvd hve 1 512 (by decide),
    gramSum x0 X bb b _ _ d e hxd hxe hmd hme hvd hve 2 1024 (by decide),
    gramSum x0 X bb b _ _ d e hxd hxe hmd hme hvd hve 3 1536 (by decide),
    gramSum x0 X bb b _ _ d e hxd hxe hmd hme hvd hve 4 2048 (by decide),
    gramSum x0 X bb b _ _ d e hxd hxe hmd hme hvd hve 5 2560 (by decide),
    gramSum x0 X bb b _ _ d e hxd hxe hmd hme hvd hve 6 3072 (by decide),
    gramSum x0 X bb b _ _ d e hxd hxe hmd hme hvd hve 7 3584 (by decide)]
  rfl

end Cert.KernelIdeal.StatsMoments

end
-- ==== Proof.StatsBlocks.lean ====
import proofs.«112801_j59837484368487_1_alg».proof.Proof.StatsMoments
import Idealize.ShloMosaic.Lib.Pipeline.Value

/-!
  From the blocks to the arrays.

  Grid point `t` works on batches `8t … 8t + 7`: the input block's entry `(bb, n, d)` is the sequence array's entry
  `(8t + bb, n, d)`, and the block each output writes back sits at the same eight batches. Every batch `b` is in the
  block of point `b / 8`, so after the eight points the kurtosis array holds the one-pass kurtosis of every batch and
  the matrix array the one-pass matrix of products of centred squares.
-/

noncomputable section

open scoped BigOperators

open Idealize.ShloMosaic Idealize.ShloMosaic.TcCoe Idealize.SL.Sem Idealize.ShloMosaic.ValueIdx
open Idealize.ShloMosaic.Pipeline (Dat)

namespace Cert.KernelIdeal.StatsBlocks

open Cert.KernelIdeal Cert.KernelIdeal.Gen Cert.KernelIdeal.StatsPieces Cert.KernelIdeal.StatsMoments Cert.Moments

variable (V : (c : Dev nD) → (b : Ref sig .tc) → Buf (Elt Ideal) ((c : Thread nD τ).loc b))

/-- Where each window's block sits at point `t`: block `t` along the batches, block 0 along the other axes. -/
theorem idx_facts : ∀ t : Fin cfg0.N,
    win0_0.index t (0 : Fin 3) = t.val ∧ win0_0.index t (1 : Fin 3) = 0 ∧ win0_0.index t (2 : Fin 3) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The input block's entry `(bb, n, d)` at point `t` is the sequence array's entry `(8t + bb, n, d)`. -/
theorem iblk_apply (c : Dev nD) (t : Fin cfg0.N) (bb : Fin 8) (n : Fin 4096) (d : Fin 128) (b : Fin 64) (hb : b.val = 8 * t.val + bb.val) :
    (iblk0 V c 0 t : Vec Ideal S8x4096x128 .f32) (ix3 bb n d) = (V c (Pipeline.arrRef spec0 0) : ArrX) (ix3 b n d) := by
  obtain ⟨e0, e1, e2, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 8 + 1 * bb.val = b.val; rw [e0, hb]; omega
  | ⟨1, _⟩ => show win0_0.index t 1 * 4096 + 1 * n.val = n.val; rw [e1]; omega
  | ⟨2, _⟩ => show win0_0.index t 2 * 128 + 1 * d.val = d.val; rw [e2]; omega

/-! ## What the body leaves at point `t` -/

/-- The kurtosis buffer after point `t`: the kurtosis block of the point's input block. -/
theorem after3 (c : Dev nD) (t : Fin cfg0.N) :
    (dat0 (F := Ideal) V c).after 3 t = kurtBlock (stretch (iblk0 V c 0 t) 0 (by decide)) (stretch (iblk0 V c 0 t) 512 (by decide)) (stretch (iblk0 V c 0 t) 1024 (by decide)) (stretch (iblk0 V c 0 t) 1536 (by decide)) (stretch (iblk0 V c 0 t) 2048 (by decide)) (stretch (iblk0 V c 0 t) 2560 (by decide)) (stretch (iblk0 V c 0 t) 3072 (by decide)) (stretch (iblk0 V c 0 t) 3584 (by decide)) := by
  rw [after0_3]
  unfold outsAt0
  dsimp only
  exact out3_eq c (grid0.coords t) (ms0_0 t) (hs0_0 t) (ms0_1 t) (hs0_1 t) (ms0_2 t) (hs0_2 t) (ms0_3 t) (hs0_3 t) (ms0_4 t) (hs0_4 t) (iblk0 V c 0 t)

/-- The matrix buffer after point `t`: the matrix block of the point's input block. -/
theorem after4 (c : Dev nD) (t : Fin cfg0.N) :
    (dat0 (F := Ideal) V c).after 4 t = covBlock (stretch (iblk0 V c 0 t) 0 (by decide)) (stretch (iblk0 V c 0 t) 512 (by decide)) (stretch (iblk0 V c 0 t) 1024 (by decide)) (stretch (iblk0 V c 0 t) 1536 (by decide)) (stretch (iblk0 V c 0 t) 2048 (by decide)) (stretch (iblk0 V c 0 t) 2560 (by decide)) (stretch (iblk0 V c 0 t) 3072 (by decide)) (stretch (iblk0 V c 0 t) 3584 (by decide)) := by
  rw [after0_4]
  unfold outsAt0
  dsimp only
  exact out4_eq c (grid0.coords t) (ms0_0 t) (hs0_0 t) (ms0_1 t) (hs0_1 t) (ms0_2 t) (hs0_2 t) (ms0_3 t) (hs0_3 t) (ms0_4 t) (hs0_4 t) (iblk0 V c 0 t)

/-! ## The kurtosis array -/

/-- The one-pass kurtosis of every batch and feature, as an array. -/
def kurtArr (X : ArrX) : S64x128.Idx → EReal := fun i => pKurt X (i 0) (i 1)

/-- Point `t` writes back block `t` of it. -/
theorem flushed3_eq (c : Dev nD) (t : Fin cfg0.N) :
    (dat0 (F := Ideal) V c).flushed 3 t = ((cfg0.win 3).blk t).view.read (Elt Ideal) (kurtArr (V c (Pipeline.arrRef spec0 0))) := by
  show (cfg0.win 3).cut (grid0.coords t) ((dat0 V c).after 3 t) = _
  rw [after3]
  have hN : cfg0.N = 8 := N_0
  have ht : t.val < 8 := hN ▸ t.isLt
  obtain ⟨-, -, -, e0, e1, -⟩ := idx_facts t
  funext j
  obtain ⟨bb, d, rfl⟩ : ∃ (bb : Fin 8) (d : Fin 128), j = ix2 bb d := ⟨j 0, j 1, eq_ix2 j⟩
  show kurtBlock (stretch (iblk0 V c 0 t) 0 (by decide)) (stretch (iblk0 V c 0 t) 512 (by decide)) (stretch (iblk0 V c 0 t) 1024 (by decide)) (stretch (iblk0 V c 0 t) 1536 (by decide)) (stretch (iblk0 V c 0 t) 2048 (by decide)) (stretch (iblk0 V c 0 t) 2560 (by decide)) (stretch (iblk0 V c 0 t) 3072 (by decide)) (stretch (iblk0 V c 0 t) 3584 (by decide)) (ix2 bb d)
      = kurtArr (V c (Pipeline.arrRef spec0 0)) (((cfg0.win 3).blk t).view.emb (ix2 bb d))
  refine (kurtBlock_apply (iblk0 V c 0 t) (V c (Pipeline.arrRef spec0 0)) bb ⟨8 * t.val + bb.val, by omega⟩ d
    (fun n => iblk_apply V c t bb n d ⟨8 * t.val + bb.val, by omega⟩ rfl)).trans ?_
  show pKurt (V c (Pipeline.arrRef spec0 0)) _ _ = pKurt (V c (Pipeline.arrRef spec0 0)) _ _
  congr 1 <;> apply Fin.ext
  · show 8 * t.val + bb.val = win0_3.index t 0 * 8 + 1 * bb.val
    rw [e0]; omega
  · show d.val = win0_3.index t 1 * 128 + 1 * d.val
    rw [e1]; omega

/-- An index of the kurtosis array is in point `t`'s block iff each coordinate is in the block's range. -/
theorem mem_blk3 (t : Fin cfg0.N) (i : S64x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_2).slice (win0_3.rect t)).set ↔ _
  rw [View.set_slice_whole, Rect.mem_set_unit]
  exact Iff.rfl

/-- Every index of the kurtosis array is in the block of the point its batch belongs to. -/
theorem cover3 (i : S64x128.Idx) : ∃ t : Fin cfg0.N, (cfg0.win 3).flush t = true ∧ i ∈ ((cfg0.win 3).blk t).view.set := by
  have hN : cfg0.N = 8 := N_0
  have hi0 : (i 0).val < 64 := (i 0).isLt
  have hi1 : (i 1).val < 128 := (i 1).isLt
  refine ⟨⟨(i 0).val / 8, by omega⟩, flush0_3 _, ?_⟩
  obtain ⟨-, -, -, e0, e1, -⟩ := idx_facts ⟨(i 0).val / 8, by omega⟩
  rw [mem_blk3]
  intro a
  match a with
  | ⟨0, _⟩ =>
    show win0_3.index _ (0 : Fin 2) * 8 ≤ (i 0).val ∧ (i 0).val < win0_3.index _ (0 : Fin 2) * 8 + 8
    rw [e0]; show (i 0).val / 8 * 8 ≤ (i 0).val ∧ (i 0).val < (i 0).val / 8 * 8 + 8; omega
  | ⟨1, _⟩ =>
    show win0_3.index _ (1 : Fin 2) * 128 ≤ (i 1).val ∧ (i 1).val < win0_3.index _ (1 : Fin 2) * 128 + 128
    rw [e1]; omega

/-- After the eight points the kurtosis array holds the one-pass kurtosis everywhere. -/
theorem final3 (c : Dev nD) : (dat0 (F := Ideal) V c).arrAt 3 cfg0.N = kurtArr (V c (Pipeline.arrRef spec0 0)) :=
  (dat0 V c).arrAt_eq_of_cover 3 (kurtArr (V c (Pipeline.arrRef spec0 0))) (fun t _ => flushed3_eq V c t) cover3

/-! ## The matrix array -/

/-- The one-pass matrix of products of centred squares of every batch, as an array. -/
def covArr (X : ArrX) : S64x128x128.Idx → EReal := fun i => pCov X (i 0) (i 1) (i 2)

/-- Point `t` writes back block `t` of it. -/
theorem flushed4_eq (c : Dev nD) (t : Fin cfg0.N) :
    (dat0 (F := Ideal) V c).flushed 4 t = ((cfg0.win 4).blk t).view.read (Elt Ideal) (covArr (V c (Pipeline.arrRef spec0 0))) := by
  show (cfg0.win 4).cut (grid0.coords t) ((dat0 V c).after 4 t) = _
  rw [after4]
  have hN : cfg0.N = 8 := N_0
  have ht : t.val < 8 := hN ▸ t.isLt
  obtain ⟨-, -, -, -, -, e0, e1, e2⟩ := idx_facts t
  funext j
  obtain ⟨bb, d, e, rfl⟩ : ∃ (bb : Fin 8) (d e : Fin 128), j = ix3 bb d e := ⟨j 0, j 1, j 2, eq_ix3 j⟩
  show covBlock (stretch (iblk0 V c 0 t) 0 (by decide)) (stretch (iblk0 V c 0 t) 512 (by decide)) (stretch (iblk0 V c 0 t) 1024 (by decide)) (stretch (iblk0 V c 0 t) 1536 (by decide)) (stretch (iblk0 V c 0 t) 2048 (by decide)) (stretch (iblk0 V c 0 t) 2560 (by decide)) (stretch (iblk0 V c 0 t) 3072 (by decide)) (stretch (iblk0 V c 0 t) 3584 (by decide)) (ix3 bb d e)
      = covArr (V c (Pipeline.arrRef spec0 0)) (((cfg0.win 4).blk t).view.emb (ix3 bb d e))
  refine (covBlock_apply (iblk0 V c 0 t) (V c (Pipeline.arrRef spec0 0)) bb ⟨8 * t.val + bb.val, by omega⟩ d e
    (fun n d' => iblk_apply V c t bb n d' ⟨8 * t.val + bb.val, by omega⟩ rfl)).trans ?_
  show pCov (V c (Pipeline.arrRef spec0 0)) _ _ _ = pCov (V c (Pipeline.arrRef spec0 0)) _ _ _
  congr 1 <;> apply Fin.ext
  · show 8 * t.val + bb.val = win0_4.index t 0 * 8 + 1 * bb.val
    rw [e0]; omega
  · show d.val = win0_4.index t 1 * 128 + 1 * d.val
    rw [e1]; omega
  · show e.val = win0_4.index t 2 * 128 + 1 * e.val
    rw [e2]; omega

/-- An index of the matrix array is in point `t`'s block iff each coordinate is in the block's range. -/
theorem mem_blk4 (t : Fin cfg0.N) (i : S64x128x128.Idx) :
    i ∈ ((cfg0.win 4).blk t).view.set ↔ ∀ a : Fin 3, win0_4.index t a * S8x128x128.size a ≤ (i a).val ∧ (i a).val < win0_4.index t a * S8x128x128.size a + S8x128x128.size a := by
  show i ∈ ((View.whole main_v0_3).slice (win0_4.rect t)).set ↔ _
  rw [View.set_slice_whole, Rect.mem_set_unit]
  exact Iff.rfl

/-- Every index of the matrix array is in the block of the point its batch belongs to. -/
theorem cover4 (i : S64x128x128.Idx) : ∃ t : Fin cfg0.N, (cfg0.win 4).flush t = true ∧ i ∈ ((cfg0.win 4).blk t).view.set := by
  have hN : cfg0.N = 8 := N_0
  have hi0 : (i 0).val < 64 := (i 0).isLt
  have hi1 : (i 1).val < 128 := (i 1).isLt
  have hi2 : (i 2).val < 128 := (i 2).isLt
  refine ⟨⟨(i 0).val / 8, by omega⟩, flush0_4 _, ?_⟩
  obtain ⟨-, -, -, -, -, e0, e1, e2⟩ := idx_facts ⟨(i 0).val / 8, by omega⟩
  rw [mem_blk4]
  intro a
  match a with
  | ⟨0, _⟩ =>
    show win0_4.index _ (0 : Fin 3) * 8 ≤ (i 0).val ∧ (i 0).val < win0_4.index _ (0 : Fin 3) * 8 + 8
    rw [e0]; show (i 0).val / 8 * 8 ≤ (i 0).val ∧ (i 0).val < (i 0).val / 8 * 8 + 8; omega
  | ⟨1, _⟩ =>
    show win0_4.index _ (1 : Fin 3) * 128 ≤ (i 1).val ∧ (i 1).val < win0_4.index _ (1 : Fin 3) * 128 + 128
    rw [e1]; omega
  | ⟨2, _⟩ =>
    show win0_4.index _ (2 : Fin 3) * 128 ≤ (i 2).val ∧ (i 2).val < win0_4.index _ (2 : Fin 3) * 128 + 128
    rw [e2]; omega

/-- After the eight points the matrix array holds the one-pass matrix everywhere. -/
theorem final4 (c : Dev nD) : (dat0 (F := Ideal) V c).arrAt 4 cfg0.N = covArr (V c (Pipeline.arrRef spec0 0)) :=
  (dat0 V c).arrAt_eq_of_cover 4 (covArr (V c (Pipeline.arrRef spec0 0))) (fun t _ => flushed4_eq V c t) cover4

end Cert.KernelIdeal.StatsBlocks

end
-- ==== Proof.StatsValue.lean ====
import proofs.«112801_j59837484368487_1_alg».proof.Proof.Gen.KernelIdeal.Frame
import proofs.«112801_j59837484368487_1_alg».proof.Proof.Spec
import proofs.«112801_j59837484368487_1_alg».proof.Proof.StatsBlocks

noncomputable section

open scoped BigOperators

namespace Cert.KernelIdeal.StatsValue

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- After the first region the kurtosis array holds the one-pass kurtosis of the sequence array the region found. -/
theorem kurt_array (c : Dev nD) (b : Fin 64) (d : Fin 128) :
    (dat0 (F := Ideal) V c).arrAt 3 cfg0.N (ix2 b d) = Cert.Moments.pKurt (V c (Pipeline.arrRef spec0 0)) b d :=
  congrFun (StatsBlocks.final3 V c) (ix2 b d)

/-- After the first region the matrix array holds the one-pass matrix of products of centred squares. -/
theorem cov_array (c : Dev nD) (b : Fin 64) (d e : Fin 128) :
    (dat0 (F := Ideal) V c).arrAt 4 cfg0.N (ix3 b d e) = Cert.Moments.pCov (V c (Pipeline.arrRef spec0 0)) b d e :=
  congrFun (StatsBlocks.final4 V c) (ix3 b d e)

end Cert.KernelIdeal.StatsValue

end
-- ==== Proof.KernelValue.lean ====
import proofs.«112801_j59837484368487_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«112801_j59837484368487_1_alg».proof.Proof.KernelRun
import proofs.«112801_j59837484368487_1_alg».proof.Proof.ProjectBlocks
import proofs.«112801_j59837484368487_1_alg».proof.Proof.ProjectInputs
import proofs.«112801_j59837484368487_1_alg».proof.Proof.StatsValue
import proofs.«112801_j59837484368487_1_alg».proof.Proof.Spec
set_option maxRecDepth 16384

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-!
  The idealized kernel's result array is the one-pass arrangement of the five argument arrays, entry by entry.

  The second launch's one write-back is its body's store of the seven arrays it finds; read at an entry that is two
  contractions and a bias (`stored_apply`). Of the seven arrays: the kurtosis array and the flattened matrix array are the
  first launch's third and fourth outputs (the one-pass kurtosis and matrix of the sequence array), entry `k` of a flattened
  row being entry `(k / 128, k % 128)` of the matrix; the two weights arrive transposed, the last one cut into its first 128
  and last 384 rows, so that row `k` of the first block is column `k` of the weight and row `j` of the second block is column
  `128 + j`; the biases arrive as they are.
-/

open Cert.KernelIdeal.ProjectValue Cert.KernelIdeal.StatsValue Cert.Moments

variable (m : (ℓ : Loc nD τ sig) → Buf (Elt Ideal) ℓ) (ρ : Dev nD → PrngReg)

/-- A 64 x 128 x 128 array re-laid as 64 x 16384 reads, at `(b, k)`, the source at `(b, k / 128, k % 128)`. -/
theorem flat_apply (A : S64x128x128.Idx → EReal) (b : Fin 64) (k : Fin 16384) :
    shapeCast S64x16384 A shapeCasts_S64x128x128_S64x16384 (ix2 b k) = A (ix3 b (rowOf k) (colOf k)) := by
  refine shapeCast_apply A _ (ix2 b k) (ix3 b (rowOf k) (colOf k)) ?_
  rw [Shape.rowMajor_val_three, Shape.rowMajor_val_two]
  show (b.val * 128 + k.val / 128) * 128 + k.val % 128 = b.val * 16384 + k.val
  omega

/-- Row `k` of the transposed last weight's first block, at column `o`, is the weight at `(o, k)`. -/
theorem low_apply (wf : S512x512.Idx → EReal) (k : Fin 128) (o : Fin 512) :
    extractStridedSlice S128x512 ![0, 0]
      (truncf (F := Ideal) .bf16 (transpose S512x512 [1, 0] wf transposes_S512x512_S512x512_1_0) bitsLt_bf16_f32 : FVec Ideal S512x512 .bf16)
      slices_S512x512_S128x512_0_0 (ix2 k o) = wf (ix2 o (lowK k)) := by
  rw [slice2_axis0_apply 0 _ _ k o (lowK k) (by show k.val = 0 + k.val; omega), truncf_apply, transpose_ix2_apply]

/-- Row `j` of the transposed last weight's second block, at column `o`, is the weight at `(o, 128 + j)`. -/
theorem high_apply (wf : S512x512.Idx → EReal) (j : Fin 384) (o : Fin 512) :
    extractStridedSlice S384x512 ![128, 0]
      (truncf (F := Ideal) .bf16 (transpose S512x512 [1, 0] wf transposes_S512x512_S512x512_1_0) bitsLt_bf16_f32 : FVec Ideal S512x512 .bf16)
      slices_S512x512_S384x512_128_0 (ix2 j o) = wf (ix2 o (highK j)) := by
  rw [slice2_axis0_apply 128 _ _ j o (highK j) (by show 128 + j.val = 128 + j.val; rfl), truncf_apply, transpose_ix2_apply]

/-- The transposed first weight at `(k, j)` is the weight at `(j, k)`. -/
theorem wcT_apply (wc : S384x16384.Idx → EReal) (k : Fin 16384) (j : Fin 384) :
    (truncf (F := Ideal) .bf16 (transpose S16384x384 [1, 0] wc transposes_S384x16384_S16384x384_1_0) bitsLt_bf16_f32 : FVec Ideal S16384x384 .bf16) (ix2 k j)
      = wc (ix2 j k) := by
  rw [truncf_apply, transpose_ix2_apply]

/-- THE RESULT: at every entry, the last boundary's contents of the result buffer are the one-pass arrangement of the
    five arguments as launched. -/
theorem result_eq (c : Dev nD) (b : Fin 64) (o : Fin 512) :
    W3 m ρ c (Proc.devRef .tc main_v8) (ix2 b o)
      = pOut (m ((c : Thread nD τ).loc main_arg0)) (m ((c : Thread nD τ).loc main_arg1)) (m ((c : Thread nD τ).loc main_arg2))
          (m ((c : Thread nD τ).loc main_arg3)) (m ((c : Thread nD τ).loc main_arg4)) b o := by
  have h3 : W3 m ρ c (Proc.devRef .tc main_v8) = (dat1 (V2 m ρ) c).arrAt 7 cfg1.N := W3_arr m ρ c 7
  rw [h3, result_array (V2 m ρ) c, store_eq]
  have e0 : V2 m ρ c (Pipeline.arrRef spec1 0) = (dat0 (V0 m ρ) c).arrAt 3 cfg0.N := found_kurt m ρ c
  have e1 : V2 m ρ c (Pipeline.arrRef spec1 1) = _ := found_flat m ρ c
  have e2 : V2 m ρ c (Pipeline.arrRef spec1 2) = _ := found_wc m ρ c
  have e3 : V2 m ρ c (Pipeline.arrRef spec1 3) = _ := found_bc m ρ c
  have e4 : V2 m ρ c (Pipeline.arrRef spec1 4) = _ := found_wf_low m ρ c
  have e5 : V2 m ρ c (Pipeline.arrRef spec1 5) = _ := found_wf_high m ρ c
  have e6 : V2 m ρ c (Pipeline.arrRef spec1 6) = _ := found_bf m ρ c
  rw [e0, e1, e2, e3, e4, e5, e6, stored_apply]
  unfold pOut pProj
  refine congrArg₂ (· + ·) (congrArg₂ (· + ·) (Finset.sum_congr rfl fun k _ => ?_) (Finset.sum_congr rfl fun j _ => ?_)) rfl
  · exact congrArg₂ (· * ·) (kurt_array (V0 m ρ) c b k) (low_apply _ k o)
  · refine congrArg₂ (· * ·) (congrArg₂ (· + ·) (Finset.sum_congr rfl fun k _ => ?_) rfl) (high_apply _ j o)
    exact congrArg₂ (· * ·) ((flat_apply _ b k).trans (cov_array (V0 m ρ) c b (rowOf k) (colOf k))) (wcT_apply _ k j)

end Cert.KernelIdeal.KernelValue

end
-- ==== Proof.ReferenceValueStats.lean ====
import proofs.«112801_j59837484368487_1_alg».proof.Proof.Gen.ReferenceIdeal.Read
import proofs.«112801_j59837484368487_1_alg».proof.Proof.Spec

noncomputable section

open scoped BigOperators

namespace Cert.ReferenceIdeal.RefValue

open Cert.ReferenceIdeal Cert.ReferenceIdeal.Read Cert.Moments Idealize.ShloMosaic Idealize.ShloMosaic.ValueIdx

/-! ## The per-feature statistics of the reference, stage by stage

Each stage of the reference is read at explicit coordinates (batch `b`, position `n`, feature `d`) and identified
with the corresponding entry of the direct arrangement. -/

/-- The mean over the sequence, broadcast back along it. -/
theorem mean_eq (x0 : ArrX) (b : Fin 64) (n : Fin 4096) (d : Fin 128) :
    val_main_v4 (F := Ideal) x0 (ix3 b n d) = dMean x0 b d := by
  rw [val_main_v4_apply, val_main_v3_apply, val_main_v1_apply, val_main_v2_apply, val_main_v0_apply,
    val_main_cst_0_apply, val_main_cst_apply]
  simp only [Ideal.hostDivf_def, Ideal.ofBits_def, Ideal.ofBits_zero_f32, zero_add]
  unfold dMean c4096
  refine congrArg (fun s => Ideal.div s _) (Finset.sum_congr rfl fun k _ => congrArg x0 ?_)
  exact funext fun a => Fin.ext (by match a with | ⟨0, _⟩ => rfl | ⟨1, _⟩ => rfl | ⟨2, _⟩ => rfl)

/-- The centred entry. -/
theorem cen_eq (x0 : ArrX) (b : Fin 64) (n : Fin 4096) (d : Fin 128) :
    val_main_v5 (F := Ideal) x0 (ix3 b n d) = dCen x0 b n d := by
  rw [val_main_v5_apply, mean_eq]
  rfl

/-- The fourth central moment. -/
theorem kurt_eq (x0 : ArrX) (b : Fin 64) (d : Fin 128) :
    val_main_v10 (F := Ideal) x0 (ix2 b d) = dKurt x0 b d := by
  rw [val_main_v10_apply, val_main_v8_apply, val_main_v9_apply, val_main_cst_2_apply, val_main_cst_1_apply]
  simp only [Ideal.hostDivf_def, Ideal.ofBits_def, Ideal.ofBits_zero_f32, zero_add]
  unfold dKurt c4096
  refine congrArg (fun s => Ideal.div s _) (Finset.sum_congr rfl fun k _ => ?_)
  have e : idx_main_v8 (ix2 b d) k = ix3 b k d :=
    funext fun a => Fin.ext (by match a with | ⟨0, _⟩ => rfl | ⟨1, _⟩ => rfl | ⟨2, _⟩ => rfl)
  rw [e, val_main_v7_apply, val_main_v6_apply, cen_eq]
  rfl

/-- The mean of the centred squares, broadcast back along the sequence. -/
theorem sqMean_eq (x0 : ArrX) (b : Fin 64) (n : Fin 4096) (d : Fin 128) :
    val_main_v16 (F := Ideal) x0 (ix3 b n d) = dSqMean x0 b d := by
  rw [val_main_v16_apply, val_main_v15_apply, val_main_v13_apply, val_main_v14_apply, val_main_v12_apply,
    val_main_cst_4_apply, val_main_cst_3_apply]
  simp only [Ideal.hostDivf_def, Ideal.ofBits_def, Ideal.ofBits_zero_f32, zero_add]
  unfold dSqMean c4096
  refine congrArg (fun s => Ideal.div s _) (Finset.sum_congr rfl fun k _ => ?_)
  have e : idx_main_v12 (idx_main_v13 (idx_main_v16 (ix3 b n d))) k = ix3 b k d :=
    funext fun a => Fin.ext (by match a with | ⟨0, _⟩ => rfl | ⟨1, _⟩ => rfl | ⟨2, _⟩ => rfl)
  rw [e, val_main_v11_apply, cen_eq]
  rfl

/-- The centred square less its mean. -/
theorem sqc_eq (x0 : ArrX) (b : Fin 64) (n : Fin 4096) (d : Fin 128) :
    val_main_v17 (F := Ideal) x0 (ix3 b n d) = dSqc x0 b n d := by
  rw [val_main_v17_apply, val_main_v11_apply, sqMean_eq, cen_eq]
  rfl

/-- The matrix of products of centred squares, summed over the sequence and divided by 4095. -/
theorem cov_eq (x0 : ArrX) (b : Fin 64) (d e : Fin 128) :
    val_main_v20 (F := Ideal) x0 (ix3 b d e) = dCov x0 b d e := by
  rw [val_main_v20_apply, val_main_v18_apply, val_main_v19_apply, val_main_cst_5_apply]
  simp only [Ideal.hostDivf_def, Ideal.ofBits_def]
  unfold dCov c4095
  refine congrArg (fun s => Ideal.div s _) (Finset.sum_congr rfl fun k _ => ?_)
  have el : lidx_main_v18 (ix3 b d e) k = ix3 b k d :=
    funext fun a => Fin.ext (by match a with | ⟨0, _⟩ => rfl | ⟨1, _⟩ => rfl | ⟨2, _⟩ => rfl)
  have er : ridx_main_v18 (ix3 b d e) k = ix3 b k e :=
    funext fun a => Fin.ext (by match a with | ⟨0, _⟩ => rfl | ⟨1, _⟩ => rfl | ⟨2, _⟩ => rfl)
  rw [el, er, sqc_eq, sqc_eq]

end Cert.ReferenceIdeal.RefValue

end
-- ==== Proof.ReferenceValue.lean ====
import proofs.«112801_j59837484368487_1_alg».proof.Proof.ReferenceValueStats

noncomputable section

open scoped BigOperators

namespace Cert.ReferenceIdeal.RefValue

open Cert.ReferenceIdeal Cert.ReferenceIdeal.Read Cert.Moments Idealize.ShloMosaic Idealize.ShloMosaic.ValueIdx

/-! ## From the statistics to the output

The matrix of products is flattened row by row, projected, laid beside the kurtosis row, and projected again. -/

/-- Entry `k` of the flattened matrix is its entry at row `k / 128`, column `k % 128`. -/
theorem flat_eq (x0 : ArrX) (b : Fin 64) (k : Fin 16384) :
    val_main_v21 (F := Ideal) x0 (ix2 b k) = dCov x0 b (rowOf k) (colOf k) := by
  have e : idx_main_v21 (ix2 b k) = ix3 b (rowOf k) (colOf k) :=
    funext fun a => Fin.ext (by
      have hb := b.isLt
      have hk := k.isLt
      match a with
      | ⟨0, _⟩ => show (b.val * 16384 + k.val) / 16384 = b.val; omega
      | ⟨1, _⟩ => show (b.val * 16384 + k.val) / 128 % 128 = k.val / 128; omega
      | ⟨2, _⟩ => show (b.val * 16384 + k.val) % 128 = k.val % 128; omega)
  rw [val_main_v21_apply, e, cov_eq]

/-- The first projection with its bias. -/
theorem proj_eq (x0 : ArrX) (x1 : ArrWc) (x2 : ArrBc) (b : Fin 64) (j : Fin 384) :
    val_main_v26 (F := Ideal) x0 x1 x2 (ix2 b j) = dProj x0 x1 x2 b j := by
  rw [val_main_v26_apply, val_main_v23_apply, val_main_v25_apply, val_main_v24_apply]
  simp only [Ideal.addf_def]
  unfold dProj
  refine congrArg₂ (· + ·) (Finset.sum_congr rfl fun k _ => ?_) (congrArg x2 (funext fun a => Fin.ext (by match a with | ⟨0, _⟩ => rfl)))
  have el : lidx_main_v23 (ix2 b j) k = ix2 b k := funext fun a => Fin.ext (by match a with | ⟨0, _⟩ => rfl | ⟨1, _⟩ => rfl)
  have er : idx_main_v22 (ridx_main_v23 (ix2 b j) k) = ix2 j k := funext fun a => Fin.ext (by match a with | ⟨0, _⟩ => rfl | ⟨1, _⟩ => rfl)
  rw [el, flat_eq, val_main_v22_apply, er]

/-- The side-by-side row: below 128 the kurtosis entry, from 128 on the projected entry 128 places earlier. -/
theorem row_eq (x0 : ArrX) (x1 : ArrWc) (x2 : ArrBc) (b : Fin 64) (k : Fin 512) :
    val_main_v27 (F := Ideal) x0 x1 x2 (ix2 b k) = dRow x0 x1 x2 b k := by
  unfold val_main_v27 dRow
  by_cases h : k.val < 128
  · rw [dif_pos h, concatenate_pair_apply_left (t := S64x512) (s₁ := S64x128) (s₂ := S64x384) 1 _ _ _
      (ix2 b k) rfl (ix2 b (⟨k.val, h⟩ : Fin 128))
      (fun c => by match c with | ⟨0, _⟩ => rfl | ⟨1, _⟩ => rfl)]
    exact kurt_eq x0 b ⟨k.val, h⟩
  · have hk := k.isLt
    rw [dif_neg h, concatenate_pair_apply_right (t := S64x512) (s₁ := S64x128) (s₂ := S64x384) 1 _ _ _
      (ix2 b k) rfl rfl (ix2 b (⟨k.val - 128, by omega⟩ : Fin 384))
      (fun c hc => by match c, hc with | ⟨0, _⟩, _ => rfl | ⟨1, _⟩, hc => exact absurd rfl hc)
      (by show k.val - 128 + 128 = k.val; omega)]
    exact proj_eq x0 x1 x2 b ⟨k.val - 128, by omega⟩

/-- The reference's last stage, read at an output entry, is the direct arrangement. -/
theorem val_eq_dOut (x0 : Cert.Moments.ArrX) (x1 : Cert.Moments.ArrWc) (x2 : Cert.Moments.ArrBc) (x3 : Cert.Moments.ArrWf)
    (x4 : Cert.Moments.ArrBf) (b : Fin 64) (o : Fin 512) :
    Cert.ReferenceIdeal.Read.val_main_v32 (F := Ideal) x0 x1 x2 x3 x4 (ix2 b o) = Cert.Moments.dOut x0 x1 x2 x3 x4 b o := by
  rw [val_main_v32_apply, val_main_v29_apply, val_main_v31_apply, val_main_v30_apply]
  simp only [Ideal.addf_def]
  unfold dOut
  refine congrArg₂ (· + ·) (Finset.sum_congr rfl fun k _ => ?_) (congrArg x4 (funext fun a => Fin.ext (by match a with | ⟨0, _⟩ => rfl)))
  have el : lidx_main_v29 (ix2 b o) k = ix2 b k := funext fun a => Fin.ext (by match a with | ⟨0, _⟩ => rfl | ⟨1, _⟩ => rfl)
  have er : idx_main_v28 (ridx_main_v29 (ix2 b o) k) = ix2 o k := funext fun a => Fin.ext (by match a with | ⟨0, _⟩ => rfl | ⟨1, _⟩ => rfl)
  rw [el, row_eq, val_main_v28_apply, er]

end Cert.ReferenceIdeal.RefValue

end
-- ==== Proof.FiniteInputs.lean ====
import Idealize.ShloMosaic.Lib.ReduceAll
import proofs.«112801_j59837484368487_1_alg».proof.Pre_finite_inputs
import proofs.«112801_j59837484368487_1_alg».proof.Proof.Spec

noncomputable section

namespace Cert.Moments

open Idealize.ShloMosaic Idealize.ShloMosaic.ValueIdx

/-- One entry's test read back: an extended real whose absolute value lies strictly below `+∞` (the word
    `0x7F800000`) is neither infinity, hence a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- Where the finiteness predicate is all ones, every entry of every input is a real number. -/
theorem real_of_finite [Cert.Pre_finite_inputs.Facts] (a0 : ArrX) (a1 : ArrWc) (a2 : ArrBc) (a3 : ArrWf) (a4 : ArrBf)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  -- the predicate's result has a single entry
  haveI : Subsingleton Cert.Pre_finite_inputs.S_.Idx := ⟨fun a b => funext fun d => d.elim0⟩
  have e := congrFun h ix0
  dsimp only [Cert.Pre_finite_inputs.fn, Cert.Pre_finite_inputs.fn_part1] at e
  -- the result is the conjunction of the five arrays' tests
  change IntOp.andi (IntOp.andi (IntOp.andi (IntOp.andi _ _) _) _) _ = 1#1 at e
  rw [IntOp.andi_eq_one, IntOp.andi_eq_one, IntOp.andi_eq_one, IntOp.andi_eq_one] at e
  obtain ⟨⟨⟨⟨e0, e1⟩, e2⟩, e3⟩, e4⟩ := e
  -- each array's test is the conjunction over its entries of "the absolute value is below +∞"
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i)⟩

end Cert.Moments

end
-- ==== Proof.MomentAlgebraSums.lean ====
import proofs.«112801_j59837484368487_1_alg».proof.Proof.Spec

/-!
  Sums and literals for the moment algebra.

  * The five binary32 words of the specification denote the reals 4096, 4095, 4, 6, 3.
  * The coercion of the reals into the extended reals commutes with finite sums.
  * A sum over the 4096 positions of a sequence is the sum of its eight stretches of 512 positions,
    position `512·ch + j` being position `j` of stretch `ch`; the eight stretch totals added from zero are that sum.
  * A sum over 512 entries is the sum of its first 128 and its last 384 entries.

  The last two hold in any commutative additive monoid, hence in the extended reals with no finiteness assumption.
-/

noncomputable section

open scoped BigOperators

namespace Cert.Moments

open Idealize.ShloMosaic Idealize.ShloMosaic.ValueIdx

/-! ## The literals -/

theorem c4096_eq : c4096 = ((4096 : ℝ) : EReal) := by
  unfold c4096; simp [Ideal.ofBits, Ideal.ieee, -EReal.coe_mul]; norm_num

theorem c4095_eq : c4095 = ((4095 : ℝ) : EReal) := by
  unfold c4095; simp [Ideal.ofBits, Ideal.ieee, -EReal.coe_mul]; norm_num

theorem c4_eq : c4 = ((4 : ℝ) : EReal) := by
  unfold c4; simp [Ideal.ofBits, Ideal.ieee, -EReal.coe_mul]; norm_num

theorem c6_eq : c6 = ((6 : ℝ) : EReal) := by
  unfold c6; simp [Ideal.ofBits, Ideal.ieee, -EReal.coe_mul]; norm_num

theorem c3_eq : c3 = ((3 : ℝ) : EReal) := by
  unfold c3; simp [Ideal.ofBits, Ideal.ieee, -EReal.coe_mul]; norm_num

/-! ## Coercion and finite sums -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Eight stretches of 512 -/

/-- Stretch and offset of a position, and back. -/
def stretchEquiv : Fin 8 × Fin 512 ≃ Fin 4096 where
  toFun p := pos p.1 p.2
  invFun n := (⟨n.val / 512, by have := n.isLt; omega⟩, ⟨n.val % 512, Nat.mod_lt _ (by norm_num)⟩)
  left_inv p := by
    obtain ⟨ch, j⟩ := p
    have h1 := ch.isLt; have h2 := j.isLt
    apply Prod.ext <;> apply Fin.ext <;> simp only [pos] <;> omega
  right_inv n := by
    apply Fin.ext; simp only [pos]; have := n.isLt; omega

theorem sum_stretch {M : Type*} [AddCommMonoid M] (f : Fin 4096 → M) :
    ∑ n : Fin 4096, f n = ∑ ch : Fin 8, ∑ j : Fin 512, f (pos ch j) := by
  rw [← Equiv.sum_comp stretchEquiv f, Fintype.sum_prod_type]
  rfl

theorem acc8_eq_sum (g : Fin 8 → EReal) : acc8 g = ∑ ch : Fin 8, g ch := by
  rw [Fin.sum_univ_eight, acc8, zero_add]

/-- The eight stretch totals, added from zero, are the sum over the whole sequence. -/
theorem acc8_stretch (f : Fin 4096 → EReal) :
    acc8 (fun ch => ∑ j : Fin 512, f (pos ch j)) = ∑ n : Fin 4096, f n := by
  rw [acc8_eq_sum, sum_stretch]

/-! ## 512 = 128 + 384 -/

theorem sum_split512 {M : Type*} [AddCommMonoid M] (f : Fin 512 → M) :
    ∑ k : Fin 512, f k = (∑ k : Fin 128, f (lowK k)) + ∑ j : Fin 384, f (highK j) := by
  have h := Fin.sum_univ_add (a := 128) (b := 384) (fun i : Fin (128 + 384) => f i)
  exact h

end Cert.Moments

end
-- ==== Proof.MomentAlgebraReal.lean ====
import proofs.«112801_j59837484368487_1_alg».proof.Proof.Spec

/-!
  The second and the fourth central moment in raw moments, over the reals.

  For a finite family `r` of `N` reals with mean `m = (Σ r)/N`, expanding `(r - m)²` and `(r - m)⁴` by the binomial
  theorem, summing over the family and using `Σ r = N·m` gives

    Σ (r - m)² / N = m₂ - m²,
    Σ (r - m)⁴ / N = m₄ - 4·m·m₃ + 6·m²·m₂ - 3·m⁴,

  where `mₖ = (Σ rᵏ)/N`. Division by `N` is written as the product with `1/N`, and powers as repeated products, in the
  association the specification uses.
-/

open scoped BigOperators

namespace Cert.Moments

variable {ι : Type*} [Fintype ι]

theorem real_var (r : ι → ℝ) (N : ℝ) (hN : (Fintype.card ι : ℝ) = N) (h0 : N ≠ 0) :
    (∑ n, (r n - (∑ n, r n) * (1 / N)) * (r n - (∑ n, r n) * (1 / N))) * (1 / N)
      = (∑ n, r n * r n) * (1 / N) - ((∑ n, r n) * (1 / N)) * ((∑ n, r n) * (1 / N)) := by
  have hS : ∑ n, r n = N * ((∑ n, r n) * (1 / N)) := by field_simp
  generalize (∑ n, r n) * (1 / N) = m at hS ⊢
  have h : ∀ n, (r n - m) * (r n - m) = r n * r n - (2 * m) * r n + m * m := fun n => by ring
  simp only [h]
  rw [Finset.sum_add_distrib, Finset.sum_sub_distrib, ← Finset.mul_sum, Finset.sum_const, Finset.card_univ,
    nsmul_eq_mul, hN, hS]
  field_simp
  ring

theorem real_kurt (r : ι → ℝ) (N : ℝ) (hN : (Fintype.card ι : ℝ) = N) (h0 : N ≠ 0) :
    (∑ n, ((r n - (∑ n, r n) * (1 / N)) * (r n - (∑ n, r n) * (1 / N)))
          * ((r n - (∑ n, r n) * (1 / N)) * (r n - (∑ n, r n) * (1 / N)))) * (1 / N)
      = (((∑ n, (r n * r n) * (r n * r n)) * (1 / N)
            - (4 * ((∑ n, r n) * (1 / N))) * ((∑ n, (r n * r n) * r n) * (1 / N)))
          + ((6 * ((∑ n, r n) * (1 / N))) * ((∑ n, r n) * (1 / N))) * ((∑ n, r n * r n) * (1 / N)))
        - (((3 * ((∑ n, r n) * (1 / N))) * ((∑ n, r n) * (1 / N))) * ((∑ n, r n) * (1 / N)))
            * ((∑ n, r n) * (1 / N)) := by
  have hS : ∑ n, r n = N * ((∑ n, r n) * (1 / N)) := by field_simp
  generalize (∑ n, r n) * (1 / N) = m at hS ⊢
  have h : ∀ n, ((r n - m) * (r n - m)) * ((r n - m) * (r n - m))
      = (r n * r n) * (r n * r n) - (4 * m) * ((r n * r n) * r n) + (6 * m * m) * (r n * r n)
          - (4 * m * m * m) * r n + m * m * m * m := fun n => by ring
  simp only [h]
  rw [Finset.sum_add_distrib, Finset.sum_sub_distrib, Finset.sum_add_distrib, Finset.sum_sub_distrib,
    ← Finset.mul_sum, ← Finset.mul_sum, ← Finset.mul_sum, Finset.sum_const, Finset.card_univ,
    nsmul_eq_mul, hN, hS]
  field_simp
  ring

end Cert.Moments
-- ==== Proof.MomentAlgebra.lean ====
import proofs.«112801_j59837484368487_1_alg».proof.Proof.MomentAlgebraSums
import proofs.«112801_j59837484368487_1_alg».proof.Proof.MomentAlgebraReal

/-!
  On real inputs the one-pass arrangement equals the direct arrangement.

  The raw power sums regroup into sums over the whole sequence (no finiteness needed), so the two means agree.
  With every entry of a sequence real, the coercion is pushed out of the sums, differences, products and quotients,
  and the variance and the fourth central moment become the two real identities of the binomial expansion. The centred
  squares, the matrix of their products, its projection and the side-by-side row then agree term by term, and the final
  sum of 512 terms splits into its first 128 and its last 384.
-/

noncomputable section

open scoped BigOperators

namespace Cert.Moments

open Idealize.ShloMosaic Idealize.ShloMosaic.ValueIdx

/-! ## Raw power sums over the whole sequence -/

theorem pS1_eq (x : ArrX) (b : Fin 64) (d : Fin 128) : pS1 x b d = ∑ n : Fin 4096, x (ix3 b n d) :=
  acc8_stretch (fun n => x (ix3 b n d))

theorem pS2_eq (x : ArrX) (b : Fin 64) (d : Fin 128) :
    pS2 x b d = ∑ n : Fin 4096, x (ix3 b n d) * x (ix3 b n d) :=
  acc8_stretch (fun n => x (ix3 b n d) * x (ix3 b n d))

theorem pS3_eq (x : ArrX) (b : Fin 64) (d : Fin 128) :
    pS3 x b d = ∑ n : Fin 4096, (x (ix3 b n d) * x (ix3 b n d)) * x (ix3 b n d) :=
  acc8_stretch (fun n => (x (ix3 b n d) * x (ix3 b n d)) * x (ix3 b n d))

theorem pS4_eq (x : ArrX) (b : Fin 64) (d : Fin 128) :
    pS4 x b d = ∑ n : Fin 4096, (x (ix3 b n d) * x (ix3 b n d)) * (x (ix3 b n d) * x (ix3 b n d)) :=
  acc8_stretch (fun n => (x (ix3 b n d) * x (ix3 b n d)) * (x (ix3 b n d) * x (ix3 b n d)))

theorem pM1_eq_dMean (x : ArrX) (b : Fin 64) (d : Fin 128) : pM1 x b d = dMean x b d := by
  unfold pM1 dMean; rw [pS1_eq]

/-! ## Variance and fourth central moment of a real sequence -/

private theorem card4096 : (Fintype.card (Fin 4096) : ℝ) = 4096 := by simp

private theorem ne4096 : (4096 : ℝ) ≠ 0 := by norm_num

theorem var_core (r : Fin 4096 → ℝ) :
    Ideal.div (∑ n, ((r n : EReal) - Ideal.div (∑ n, (r n : EReal)) c4096)
        * ((r n : EReal) - Ideal.div (∑ n, (r n : EReal)) c4096)) c4096
      = Ideal.div (∑ n, (r n : EReal) * (r n : EReal)) c4096
        - Ideal.div (∑ n, (r n : EReal)) c4096 * Ideal.div (∑ n, (r n : EReal)) c4096 := by
  simp only [c4096_eq, Ideal.div_coe ne4096, ← coe_sum, ← EReal.coe_mul, ← EReal.coe_sub]
  exact congrArg _ (real_var r 4096 card4096 ne4096)

theorem kurt_core (r : Fin 4096 → ℝ) :
    Ideal.div (∑ n, (((r n : EReal) - Ideal.div (∑ n, (r n : EReal)) c4096)
          * ((r n : EReal) - Ideal.div (∑ n, (r n : EReal)) c4096))
        * (((r n : EReal) - Ideal.div (∑ n, (r n : EReal)) c4096)
          * ((r n : EReal) - Ideal.div (∑ n, (r n : EReal)) c4096))) c4096
      = ((Ideal.div (∑ n, ((r n : EReal) * (r n : EReal)) * ((r n : EReal) * (r n : EReal))) c4096
            - (c4 * Ideal.div (∑ n, (r n : EReal)) c4096)
              * Ideal.div (∑ n, ((r n : EReal) * (r n : EReal)) * (r n : EReal)) c4096)
          + ((c6 * Ideal.div (∑ n, (r n : EReal)) c4096) * Ideal.div (∑ n, (r n : EReal)) c4096)
              * Ideal.div (∑ n, (r n : EReal) * (r n : EReal)) c4096)
        - (((c3 * Ideal.div (∑ n, (r n : EReal)) c4096) * Ideal.div (∑ n, (r n : EReal)) c4096)
              * Ideal.div (∑ n, (r n : EReal)) c4096)
            * Ideal.div (∑ n, (r n : EReal)) c4096 := by
  simp only [c4096_eq, c4_eq, c6_eq, c3_eq, Ideal.div_coe ne4096, ← coe_sum, ← EReal.coe_mul, ← EReal.coe_sub,
    ← EReal.coe_add]
  exact congrArg _ (real_kurt r 4096 card4096 ne4096)

theorem dSqMean_eq_pVar (x : ArrX) (hx : ∀ i, ∃ r : ℝ, x i = (r : EReal)) (b : Fin 64) (d : Fin 128) :
    dSqMean x b d = pVar x b d := by
  choose xr hxr using hx
  simp only [dSqMean, dCen, dMean, pVar, pM2, pM1, pS2_eq, pS1_eq, hxr]
  exact var_core (fun n => xr (ix3 b n d))

theorem dKurt_eq_pKurt (x : ArrX) (hx : ∀ i, ∃ r : ℝ, x i = (r : EReal)) (b : Fin 64) (d : Fin 128) :
    dKurt x b d = pKurt x b d := by
  choose xr hxr using hx
  simp only [dKurt, dCen, dMean, pKurt, pM4, pM3, pM2, pM1, pS4_eq, pS3_eq, pS2_eq, pS1_eq, hxr]
  exact kurt_core (fun n => xr (ix3 b n d))

/-! ## Centred squares, their products, the projection -/

theorem dSqc_eq_pSqc (x : ArrX) (hx : ∀ i, ∃ r : ℝ, x i = (r : EReal)) (b : Fin 64) (n : Fin 4096) (d : Fin 128) :
    dSqc x b n d = pSqc x b n d := by
  unfold dSqc pSqc dCen; rw [dSqMean_eq_pVar x hx, pM1_eq_dMean]

theorem dCov_eq_pCov (x : ArrX) (hx : ∀ i, ∃ r : ℝ, x i = (r : EReal)) (b : Fin 64) (d e : Fin 128) :
    dCov x b d e = pCov x b d e := by
  unfold dCov pCov
  rw [acc8_stretch (fun n => pSqc x b n d * pSqc x b n e)]
  simp only [dSqc_eq_pSqc x hx]

theorem dProj_eq_pProj (x : ArrX) (wc : ArrWc) (bc : ArrBc) (hx : ∀ i, ∃ r : ℝ, x i = (r : EReal))
    (b : Fin 64) (j : Fin 384) : dProj x wc bc b j = pProj x wc bc b j := by
  unfold dProj pProj; simp only [dCov_eq_pCov x hx]

/-! ## The side-by-side row -/

theorem dRow_lowK (x : ArrX) (wc : ArrWc) (bc : ArrBc) (b : Fin 64) (k : Fin 128) :
    dRow x wc bc b (lowK k) = dKurt x b k := by
  unfold dRow; rw [dif_pos (show (lowK k).val < 128 from k.isLt)]; rfl

theorem dRow_highK (x : ArrX) (wc : ArrWc) (bc : ArrBc) (b : Fin 64) (j : Fin 384) :
    dRow x wc bc b (highK j) = dProj x wc bc b j := by
  unfold dRow
  rw [dif_neg (show ¬ (highK j).val < 128 from by simp only [highK]; omega)]
  congr 1; apply Fin.ext; simp only [highK]; omega

/-- On real inputs the one-pass arrangement and the direct arrangement give the same output entry. -/
theorem pOut_eq_dOut (x : ArrX) (wc : ArrWc) (bc : ArrBc) (wf : ArrWf) (bf : ArrBf)
    (hx : ∀ i, ∃ r : ℝ, x i = (r : EReal)) (hwc : ∀ i, ∃ r : ℝ, wc i = (r : EReal))
    (hbc : ∀ i, ∃ r : ℝ, bc i = (r : EReal)) (hwf : ∀ i, ∃ r : ℝ, wf i = (r : EReal))
    (hbf : ∀ i, ∃ r : ℝ, bf i = (r : EReal)) (b : Fin 64) (o : Fin 512) :
    pOut x wc bc wf bf b o = dOut x wc bc wf bf b o := by
  unfold pOut dOut
  rw [sum_split512 (fun k => dRow x wc bc b k * wf (ix2 o k))]
  simp only [dRow_lowK, dRow_highK, dKurt_eq_pKurt x hx, dProj_eq_pProj x wc bc hx]

end Cert.Moments

end
-- ==== Proof.lean ====
/-
  Fourth-order pooling: the Pallas kernel against its jnp reference, over the extended reals.

  The reference centres the sequence, takes the fourth power and the centred squares by their definitions, and contracts in
  one piece. The kernel streams the sequence once: it accumulates the four raw power sums over eight stretches, forms the
  mean, the variance and the kurtosis as polynomials in the raw moments, builds the matrix of products of centred squares
  stretch by stretch on the matrix unit, and in a second launch projects the flattened matrix and contracts the kurtosis and
  projected rows against the two row blocks of the last weight.

  The three frames: the two kernel programs' are generated whole; the reference's is its generated run with the result
  dropped. The idealization rewrote nothing, so `preserves` is `True`.

  The value claim: the kernel's run ends with its result buffer at the last boundary's contents (Proof/KernelRun.lean), which
  entry by entry are the one-pass arrangement of the arguments (Proof/KernelValue.lean, over Proof/StatsValue.lean for the
  first launch and Proof/Project*.lean for the second); the reference's run ends at its last stage, which entry by entry is the
  direct arrangement (Proof/ReferenceValue.lean); the precondition makes every input entry a real number
  (Proof/FiniteInputs.lean), and on real inputs the two arrangements agree (Proof/MomentAlgebra.lean: the binomial expansion
  of the centred powers summed over the sequence, sums regrouped by stretches, the last contraction split at 128).
-/
import proofs.«112801_j59837484368487_1_alg».proof.Defs
import proofs.«112801_j59837484368487_1_alg».proof.Proof.Gen.Kernel
import proofs.«112801_j59837484368487_1_alg».proof.Proof.Gen.Kernel.Skeleton
import proofs.«112801_j59837484368487_1_alg».proof.Proof.Gen.Kernel.Launch
import proofs.«112801_j59837484368487_1_alg».proof.Proof.Gen.Kernel.Points
import proofs.«112801_j59837484368487_1_alg».proof.Proof.Gen.Kernel.Frame
import proofs.«112801_j59837484368487_1_alg».proof.Proof.Gen.KernelIdeal
import proofs.«112801_j59837484368487_1_alg».proof.Proof.Gen.KernelIdeal.Skeleton
import proofs.«112801_j59837484368487_1_alg».proof.Proof.Gen.KernelIdeal.Launch
import proofs.«112801_j59837484368487_1_alg».proof.Proof.Gen.KernelIdeal.Points
import proofs.«112801_j59837484368487_1_alg».proof.Proof.Gen.KernelIdeal.Frame
import proofs.«112801_j59837484368487_1_alg».proof.Proof.Gen.ReferenceIdeal
import proofs.«112801_j59837484368487_1_alg».proof.Proof.Gen.ReferenceIdeal.Run
import proofs.«112801_j59837484368487_1_alg».proof.Proof.Gen.ReferenceIdeal.Read
import proofs.«112801_j59837484368487_1_alg».proof.Proof.Gen.Pre_finite_inputs
import proofs.«112801_j59837484368487_1_alg».proof.Proof.KernelRun
import proofs.«112801_j59837484368487_1_alg».proof.Proof.KernelValue
import proofs.«112801_j59837484368487_1_alg».proof.Proof.ReferenceValue
import proofs.«112801_j59837484368487_1_alg».proof.Proof.FiniteInputs
import proofs.«112801_j59837484368487_1_alg».proof.Proof.MomentAlgebra
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel terminates, faults nowhere and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, all finite, both programs end with the same result: the direct
    arrangement of the arguments, which on real inputs is also the one-pass arrangement the kernel computes. -/
theorem algebraic : Cert.algebraic_KernelIdeal_ReferenceIdeal := by
  intro m ρ m' ρ' hpre hagree
  refine ⟨fun c => Cert.ReferenceIdeal.Read.val_main_v32 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Run.result (F := Ideal) m ρ)
    obtain ⟨h0, h1, h2, h3, h4⟩ := Cert.Moments.real_of_finite _ _ _ _ _ (hpre c)
    funext i
    obtain ⟨b, o, rfl⟩ : ∃ (b : Fin 64) (o : Fin 512), i = ix2 b o := ⟨i 0, i 1, eq_ix2 i⟩
    rw [Cert.KernelIdeal.KernelValue.result_eq]
    exact (Cert.Moments.pOut_eq_dOut _ _ _ _ _ h0 h1 h2 h3 h4 b o).trans
      (Cert.ReferenceIdeal.RefValue.val_eq_dOut _ _ _ _ _ b o).symm
  · refine (θ_run Cert.ReferenceIdeal.defs _ _).mono (fun r h c => ⟨?_, (h c).2⟩)
      (Cert.ReferenceIdeal.Value.run (F := Ideal) m' ρ')
    rw [(h c).1, Cert.ReferenceIdeal.Read.val_main_v32_eq, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
